-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x32 : Shape := ⟨3, ![64, 64, 32]⟩
abbrev S32x32 : Shape := ⟨2, ![32, 32]⟩
abbrev S64x64x8 : Shape := ⟨3, ![64, 64, 8]⟩
abbrev S_ : Shape := ⟨0, ![]⟩

class Facts : Prop where
  bcast_S_S64x64x32 : S_.BroadcastsInDim S64x64x32 (![] : Fin 0 → Fin S64x64x32.rank)
  reducesTo_S64x64x32_S_d0_1_2 : S64x64x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S64x64x8 : S_.BroadcastsInDim S64x64x8 (![] : Fin 0 → Fin S64x64x8.rank)
  reducesTo_S64x64x8_S_d0_1_2 : S64x64x8.ReducesTo [0, 1, 2] S_

variable [Facts]

def fn {F : FTy → Type} [FloatOps F] (main_arg0 : FVec F S64x64x32 .f32) (main_arg1 : FVec F S32x32 .f32) (main_arg2 : FVec F S64x64x8 .f32) : IVec S_ 1 :=
  let main_v0 : FVec F S64x64x32 .f32 := Host.absf main_arg0
  let main_cst : FVec F S_ .f32 := constant S_ .f32 0x7F800000#32
  let main_v1 : FVec F S64x64x32 .f32 := broadcastInDim S64x64x32 ![] bcast_S_S64x64x32 main_cst
  let main_v2 : IVec S64x64x32 1 := cmpf .olt main_v0 main_v1
  let main_c : IVec S_ 1 := constantI S_ 1 1#1
  let main_v3 : IVec S_ 1 := (fun x v => Host.reduce IntOp.andi x v reducesTo_S64x64x32_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S64x64x8 .f32 := Host.absf main_arg2
  let main_cst_2 : FVec F S_ .f32 := constant S_ .f32 0x7F800000#32
  let main_v10 : FVec F S64x64x8 .f32 := broadcastInDim S64x64x8 ![] bcast_S_S64x64x8 main_cst_2
  let main_v11 : IVec S64x64x8 1 := cmpf .olt main_v9 main_v10
  let main_c_3 : IVec S_ 1 := constantI S_ 1 1#1
  let main_v12 : IVec S_ 1 := (fun x v => Host.reduce IntOp.andi x v reducesTo_S64x64x8_S_d0_1_2 h_S_) main_v11 main_c_3
  let main_v13 : IVec S_ 1 := andi main_v8 main_v12
  main_v13
-- ==== Kernel.lean ====
abbrev S64x64x32 : Shape := ⟨3, ![64, 64, 32]⟩
abbrev S32x32 : Shape := ⟨2, ![32, 32]⟩
abbrev S64x64x8 : Shape := ⟨3, ![64, 64, 8]⟩
abbrev S1024x128 : Shape := ⟨2, ![1024, 128]⟩
abbrev S4096x8 : Shape := ⟨2, ![4096, 8]⟩
abbrev S8x4096 : Shape := ⟨2, ![8, 4096]⟩
abbrev S32x4096 : Shape := ⟨2, ![32, 4096]⟩
abbrev S1x32 : Shape := ⟨2, ![1, 32]⟩
abbrev S8x1 : Shape := ⟨2, ![8, 1]⟩
abbrev S8x32 : Shape := ⟨2, ![8, 32]⟩
abbrev S8x32x1 : Shape := ⟨3, ![8, 32, 1]⟩
abbrev S8x1x4096 : Shape := ⟨3, ![8, 1, 4096]⟩
abbrev S8x32x4096 : Shape := ⟨3, ![8, 32, 4096]⟩
abbrev S4096x32 : Shape := ⟨2, ![4096, 32]⟩

abbrev nBuf : Space → Nat
  | .hbm => 9
  | .vmem => 4
  | .smem => 0
  | _ => 0

abbrev bufTy : (tb : Table) → Fin (tcTables nBuf tb) → BufTy
  | .hbm, ⟨0, _⟩ => ⟨S64x64x32, .f32⟩
  | .hbm, ⟨1, _⟩ => ⟨S32x32, .f32⟩
  | .hbm, ⟨2, _⟩ => ⟨S64x64x8, .f32⟩
  | .hbm, ⟨3, _⟩ => ⟨S1024x128, .f32⟩
  | .hbm, ⟨4, _⟩ => ⟨S4096x8, .f32⟩
  | .hbm, ⟨5, _⟩ => ⟨S8x4096, .f32⟩
  | .hbm, ⟨6, _⟩ => ⟨S32x4096, .f32⟩
  | .hbm, ⟨7, _⟩ => ⟨S4096x32, .f32⟩
  | .hbm, ⟨8, _⟩ => ⟨S64x64x32, .f32⟩
  | .local _ .vmem, ⟨0, _⟩ => ⟨S1024x128, .f32⟩
  | .local _ .vmem, ⟨1, _⟩ => ⟨S32x32, .f32⟩
  | .local _ .vmem, ⟨2, _⟩ => ⟨S8x4096, .f32⟩
  | .local _ .vmem, ⟨3, _⟩ => ⟨S32x4096, .f32⟩
  | _, _ => ⟨S64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  shapeCasts_S64x64x32_S1024x128 : S64x64x32.ShapeCasts S1024x128
  shapeCasts_S64x64x8_S4096x8 : S64x64x8.ShapeCasts S4096x8
  transposes_S4096x8_S8x4096_1_0 : S4096x8.Transposes [1, 0] S8x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  slices_S1024x128_o0_0_S1x32 : S1024x128.Slices ![0, 0] S1x32
  slices_S1024x128_o115_32_S1x32 : S1024x128.Slices ![115, 32] S1x32
  slices_S1024x128_o230_64_S1x32 : S1024x128.Slices ![230, 64] S1x32
  slices_S1024x128_o345_96_S1x32 : S1024x128.Slices ![345, 96] S1x32
  slices_S1024x128_o461_0_S1x32 : S1024x128.Slices ![461, 0] S1x32
  slices_S1024x128_o560_32_S1x32 : S1024x128.Slices ![560, 32] S1x32
  slices_S1024x128_o675_64_S1x32 : S1024x128.Slices ![675, 64] S1x32
  slices_S1024x128_o790_96_S1x32 : S1024x128.Slices ![790, 96] S1x32
  slices_S1024x128_o906_0_S1x32 : S1024x128.Slices ![906, 0] S1x32
  slices_S1024x128_o1021_32_S1x32 : S1024x128.Slices ![1021, 32] S1x32
  slices_S1024x128_o96_64_S1x32 : S1024x128.Slices ![96, 64] S1x32
  slices_S1024x128_o211_96_S1x32 : S1024x128.Slices ![211, 96] S1x32
  slices_S1024x128_o327_0_S1x32 : S1024x128.Slices ![327, 0] S1x32
  slices_S1024x128_o442_32_S1x32 : S1024x128.Slices ![442, 32] S1x32
  slices_S1024x128_o557_64_S1x32 : S1024x128.Slices ![557, 64] S1x32
  slices_S1024x128_o656_96_S1x32 : S1024x128.Slices ![656, 96] S1x32
  slices_S1024x128_o772_0_S1x32 : S1024x128.Slices ![772, 0] S1x32
  slices_S1024x128_o887_32_S1x32 : S1024x128.Slices ![887, 32] S1x32
  slices_S1024x128_o1002_64_S1x32 : S1024x128.Slices ![1002, 64] S1x32
  slices_S1024x128_o93_96_S1x32 : S1024x128.Slices ![93, 96] S1x32
  slices_S1024x128_o193_0_S1x32 : S1024x128.Slices ![193, 0] S1x32
  slices_S1024x128_o308_32_S1x32 : S1024x128.Slices ![308, 32] S1x32
  slices_S1024x128_o423_64_S1x32 : S1024x128.Slices ![423, 64] S1x32
  slices_S1024x128_o538_96_S1x32 : S1024x128.Slices ![538, 96] S1x32
  slices_S1024x128_o654_0_S1x32 : S1024x128.Slices ![654, 0] S1x32
  slices_S1024x128_o753_32_S1x32 : S1024x128.Slices ![753, 32] S1x32
  slices_S1024x128_o868_64_S1x32 : S1024x128.Slices ![868, 64] S1x32
  slices_S1024x128_o983_96_S1x32 : S1024x128.Slices ![983, 96] S1x32
  slices_S1024x128_o75_0_S1x32 : S1024x128.Slices ![75, 0] S1x32
  slices_S1024x128_o190_32_S1x32 : S1024x128.Slices ![190, 32] S1x32
  slices_S1024x128_o289_64_S1x32 : S1024x128.Slices ![289, 64] S1x32
  slices_S1024x128_o404_96_S1x32 : S1024x128.Slices ![404, 96] S1x32
  concatenates_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S32x32_d0 : Shape.Concatenates [S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32] S32x32 0
  slices_S8x4096_o0_0_S8x1 : S8x4096.Slices ![0, 0] S8x1
  slices_S8x4096_o0_461_S8x1 : S8x4096.Slices ![0, 461] S8x1
  slices_S8x4096_o0_922_S8x1 : S8x4096.Slices ![0, 922] S8x1
  slices_S8x4096_o0_1383_S8x1 : S8x4096.Slices ![0, 1383] S8x1
  slices_S8x4096_o0_1844_S8x1 : S8x4096.Slices ![0, 1844] S8x1
  slices_S8x4096_o0_2241_S8x1 : S8x4096.Slices ![0, 2241] S8x1
  slices_S8x4096_o0_2702_S8x1 : S8x4096.Slices ![0, 2702] S8x1
  slices_S8x4096_o0_3163_S8x1 : S8x4096.Slices ![0, 3163] S8x1
  slices_S8x4096_o0_3624_S8x1 : S8x4096.Slices ![0, 3624] S8x1
  slices_S8x4096_o0_4085_S8x1 : S8x4096.Slices ![0, 4085] S8x1
  slices_S8x4096_o0_386_S8x1 : S8x4096.Slices ![0, 386] S8x1
  slices_S8x4096_o0_847_S8x1 : S8x4096.Slices ![0, 847] S8x1
  slices_S8x4096_o0_1308_S8x1 : S8x4096.Slices ![0, 1308] S8x1
  slices_S8x4096_o0_1769_S8x1 : S8x4096.Slices ![0, 1769] S8x1
  slices_S8x4096_o0_2230_S8x1 : S8x4096.Slices ![0, 2230] S8x1
  slices_S8x4096_o0_2627_S8x1 : S8x4096.Slices ![0, 2627] S8x1
  slices_S8x4096_o0_3088_S8x1 : S8x4096.Slices ![0, 3088] S8x1
  slices_S8x4096_o0_3549_S8x1 : S8x4096.Slices ![0, 3549] S8x1
  slices_S8x4096_o0_4010_S8x1 : S8x4096.Slices ![0, 4010] S8x1
  slices_S8x4096_o0_375_S8x1 : S8x4096.Slices ![0, 375] S8x1
  slices_S8x4096_o0_772_S8x1 : S8x4096.Slices ![0, 772] S8x1
  slices_S8x4096_o0_1233_S8x1 : S8x4096.Slices ![0, 1233] S8x1
  slices_S8x4096_o0_1694_S8x1 : S8x4096.Slices ![0, 1694] S8x1
  slices_S8x4096_o0_2155_S8x1 : S8x4096.Slices ![0, 2155] S8x1
  slices_S8x4096_o0_2616_S8x1 : S8x4096.Slices ![0, 2616] S8x1
  slices_S8x4096_o0_3013_S8x1 : S8x4096.Slices ![0, 3013] S8x1
  slices_S8x4096_o0_3474_S8x1 : S8x4096.Slices ![0, 3474] S8x1
  slices_S8x4096_o0_3935_S8x1 : S8x4096.Slices ![0, 3935] S8x1
  slices_S8x4096_o0_300_S8x1 : S8x4096.Slices ![0, 300] S8x1
  slices_S8x4096_o0_761_S8x1 : S8x4096.Slices ![0, 761] S8x1
  slices_S8x4096_o0_1158_S8x1 : S8x4096.Slices ![0, 1158] S8x1
  slices_S8x4096_o0_1619_S8x1 : S8x4096.Slices ![0, 1619] S8x1
  concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x32_d1 : Shape.Concatenates [S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1] S8x32 1
  inb_S32x32_S32x32_0_0 : ∀ a, (![0, 0] : Fin 2 → Nat) a + S32x32.size a ≤ S32x32.size a
  h_S32x32 : 0 < S32x32.numel
  shapeCasts_S8x32_S8x32x1 : S8x32.ShapeCasts S8x32x1
  shapeCasts_S8x4096_S8x1x4096 : S8x4096.ShapeCasts S8x1x4096
  broadcasts_S8x32x1_S8x32x4096 : S8x32x1.Broadcasts S8x32x4096
  broadcasts_S8x1x4096_S8x32x4096 : S8x1x4096.Broadcasts S8x32x4096
  reduces_S8x32x4096_S32x4096 : S8x32x4096.Reduces [0] S32x4096
  inb_S32x4096_S32x4096_0_0 : ∀ a, (![0, 0] : Fin 2 → Nat) a + S32x4096.size a ≤ S32x4096.size a
  h_S32x4096 : 0 < S32x4096.numel
  transposes_S32x4096_S4096x32_1_0 : S32x4096.Transposes [1, 0] S4096x32
  shapeCasts_S4096x32_S64x64x32 : S4096x32.ShapeCasts S64x64x32
  dot_S32x32_S32x32_S32x32_1_0_0_1_n_n_wf : DotDims.WF S32x32 S32x32 S32x32 [1] [0] [0] [1] [] []
  dot_S32x32_S32x4096_S32x4096_0_0_1_1_n_n_wf : DotDims.WF S32x32 S32x4096 S32x4096 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x4096_S32x4096_0_0_1_1_n_n : DotDims S32x32 S32x4096 S32x4096 where
  lhsContracting := [0]
  rhsContracting := [0]
  lhsNonContracting := [1]
  rhsNonContracting := [1]
  lhsBatch := []
  rhsBatch := []
  wf := dot_S32x32_S32x4096_S32x4096_0_0_1_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_v3) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x32 : Shape := ⟨3, ![64, 64, 32]⟩
abbrev S32x32 : Shape := ⟨2, ![32, 32]⟩
abbrev S64x64x8 : Shape := ⟨3, ![64, 64, 8]⟩
abbrev S32x2 : Shape := ⟨2, ![32, 2]⟩
abbrev S32x1 : Shape := ⟨2, ![32, 1]⟩
abbrev S32 : Shape := ⟨1, ![32]⟩
abbrev S_ : Shape := ⟨0, ![]⟩
abbrev S32x8 : Shape := ⟨2, ![32, 8]⟩
abbrev S1x1x32x8 : Shape := ⟨4, ![1, 1, 32, 8]⟩
abbrev S64x64x1x8 : Shape := ⟨4, ![64, 64, 1, 8]⟩
abbrev S64x64x32x8 : Shape := ⟨4, ![64, 64, 32, 8]⟩

abbrev nBuf : Space → Nat
  | .hbm => 100
  | .vmem => 0
  | .smem => 0
  | _ => 0

abbrev bufTy : (tb : Table) → Fin (tcTables nBuf tb) → BufTy
  | .hbm, ⟨0, _⟩ => ⟨S64x64x32, .f32⟩
  | .hbm, ⟨1, _⟩ => ⟨S32x32, .f32⟩
  | .hbm, ⟨2, _⟩ => ⟨S64x64x8, .f32⟩
  | .hbm, ⟨3, _⟩ => ⟨S32x2, .i32⟩
  | .hbm, ⟨4, _⟩ => ⟨S32x1, .i32⟩
  | .hbm, ⟨5, _⟩ => ⟨S32, .i32⟩
  | .hbm, ⟨6, _⟩ => ⟨S32x1, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S32x1, .i32⟩
  | .hbm, ⟨23, _⟩ => ⟨S32x1, .i32⟩
  | .hbm, ⟨24, _⟩ => ⟨S32x2, .i32⟩
  | .hbm, ⟨25, _⟩ => ⟨S32x8, .f32⟩
  | .hbm, ⟨26, _⟩ => ⟨S1x1x32x8, .f32⟩
  | .hbm, ⟨27, _⟩ => ⟨S64x64x1x8, .f32⟩
  | .hbm, ⟨28, _⟩ => ⟨S64x64x32x8, .f32⟩
  | .hbm, ⟨29, _⟩ => ⟨S64x64x32x8, .f32⟩
  | .hbm, ⟨30, _⟩ => ⟨S64x64x32x8, .f32⟩
  | .hbm, ⟨31, _⟩ => ⟨S64x64x32x8, .f32⟩
  | .hbm, ⟨32, _⟩ => ⟨S64x64x32x8, .f32⟩
  | .hbm, ⟨33, _⟩ => ⟨S64x64x32x8, .f32⟩
  | .hbm, ⟨34, _⟩ => ⟨S_, .f32⟩
  | .hbm, ⟨35, _⟩ => ⟨S64x64x32, .f32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32, .i32⟩
  | .hbm, ⟨49, _⟩ => ⟨S32, .i32⟩
  | .hbm, ⟨50, _⟩ => ⟨S_, .i32⟩
  | .hbm, ⟨51, _⟩ => ⟨S32, .i32⟩
  | .hbm, ⟨52, _⟩ => ⟨S32, .i1⟩
  | .hbm, ⟨53, _⟩ => ⟨S32, .i1⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S32, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S_, .i32⟩
  | .hbm, ⟨67, _⟩ => ⟨S32, .i32⟩
  | .hbm, ⟨68, _⟩ => ⟨S32, .i1⟩
  | .hbm, ⟨69, _⟩ => ⟨S_, .i32⟩
  | .hbm, ⟨70, _⟩ => ⟨S32, .i32⟩
  | .hbm, ⟨71, _⟩ => ⟨S32, .i1⟩
  | .hbm, ⟨72, _⟩ => ⟨S_, .i32⟩
  | .hbm, ⟨73, _⟩ => ⟨S_, .i1⟩
  | .hbm, ⟨74, _⟩ => ⟨S32, .i1⟩
  | .hbm, ⟨75, _⟩ => ⟨S32, .i1⟩
  | .hbm, ⟨76, _⟩ => ⟨S32, .i1⟩
  | .hbm, ⟨77, _⟩ => ⟨S32, .i32⟩
  | .hbm, ⟨78, _⟩ => ⟨S32, .i32⟩
  | .hbm, ⟨79, _⟩ => ⟨S32, .i32⟩
  | .hbm, ⟨80, _⟩ => ⟨S_, .i32⟩
  | .hbm, ⟨81, _⟩ => ⟨S32, .i32⟩
  | .hbm, ⟨82, _⟩ => ⟨S32, .i1⟩
  | .hbm, ⟨83, _⟩ => ⟨S_, .i32⟩
  | .hbm, ⟨84, _⟩ => ⟨S32, .i32⟩
  | .hbm, ⟨85, _⟩ => ⟨S32, .i32⟩
  | .hbm, ⟨86, _⟩ => ⟨S32, .i32⟩
  | .hbm, ⟨87, _⟩ => ⟨S_, .i32⟩
  | .hbm, ⟨88, _⟩ => ⟨S32, .i32⟩
  | .hbm, ⟨89, _⟩ => ⟨S32, .i1⟩
  | .hbm, ⟨90, _⟩ => ⟨S_, .i32⟩
  | .hbm, ⟨91, _⟩ => ⟨S32, .i32⟩
  | .hbm, ⟨92, _⟩ => ⟨S32, .i32⟩
  | .hbm, ⟨93, _⟩ => ⟨S32, .i32⟩
  | .hbm, ⟨94, _⟩ => ⟨S32x1, .i32⟩
  | .hbm, ⟨95, _⟩ => ⟨S32x1, .i32⟩
  | .hbm, ⟨96, _⟩ => ⟨S32x2, .i32⟩
  | .hbm, ⟨97, _⟩ => ⟨S32x32, .f32⟩
  | .hbm, ⟨98, _⟩ => ⟨S32x32, .f32⟩
  | .hbm, ⟨99, _⟩ => ⟨S64x64x32, .f32⟩
  | _, _ => ⟨S64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v30 : Ref sig .tc := ⟨.hbm, 57, rfl⟩
abbrev main_c_6 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v31 : Ref sig .tc := ⟨.hbm, 79, rfl⟩
abbrev main_c_7 : Ref sig .tc := ⟨.hbm, 80, rfl⟩
abbrev main_v32 : Ref sig .tc := ⟨.hbm, 81, rfl⟩
abbrev main_v33 : Ref sig .tc := ⟨.hbm, 82, rfl⟩
abbrev main_c_8 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_9 : Ref sig .tc := ⟨.hbm, 87, rfl⟩
abbrev main_v37 : Ref sig .tc := ⟨.hbm, 88, rfl⟩
abbrev main_v38 : Ref sig .tc := ⟨.hbm, 89, rfl⟩
abbrev main_c_10 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩

abbrev nD : Nat := 1
abbrev τ : Topo := Topo.v7x

variable {F : FTy → Type} [FloatOps F]

class Facts₀ : Prop where
  slices_S32x2_S32x1_0_0 : S32x2.Slices ![0, 0] S32x1
  shapeCasts_S32x1_S32 : S32x1.ShapeCasts S32
  slices_S32x2_S32x1_0_1 : S32x2.Slices ![0, 1] S32x1
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S32x8_S1x1x32x8_2_3 : S32x8.BroadcastsInDim S1x1x32x8 (![2, 3] : Fin 2 → Fin S1x1x32x8.rank)
  bcast_S64x64x8_S64x64x1x8_0_1_3 : S64x64x8.BroadcastsInDim S64x64x1x8 (![0, 1, 3] : Fin 3 → Fin S64x64x1x8.rank)
  bcast_S1x1x32x8_S64x64x32x8_0_1_2_3 : S1x1x32x8.BroadcastsInDim S64x64x32x8 (![0, 1, 2, 3] : Fin 4 → Fin S64x64x32x8.rank)
  bcast_S64x64x1x8_S64x64x32x8_0_1_2_3 : S64x64x1x8.BroadcastsInDim S64x64x32x8 (![0, 1, 2, 3] : Fin 4 → Fin S64x64x32x8.rank)
  reducesTo_S64x64x32x8_S64x64x32_d3 : S64x64x32x8.ReducesTo [3] S64x64x32
  h_S_ : 0 < S_.numel
  gather_S64x64x8_S32x2_S32x8_1_01_n_n_01_1_118_wf : GatherDims.WF S64x64x8 S32x2 S32x8 [1] [0, 1] [] [0, 1] [] 1 ![1, 1, 8]
  gather_S64x64x32_S32x2_S32x32_1_01_n_n_01_1_1132_wf : GatherDims.WF S64x64x32 S32x2 S32x32 [1] [0, 1] [] [0, 1] [] 1 ![1, 1, 32]
  dot_S32x32_S32x32_S32x32_1_0_0_1_n_n_wf : DotDims.WF S32x32 S32x32 S32x32 [1] [0] [0] [1] [] []
  dot_S64x64x32_S32x32_S64x64x32_2_0_01_1_n_n_wf : DotDims.WF S64x64x32 S32x32 S64x64x32 [2] [0] [0, 1] [1] [] []

variable [Facts₀]

def gather_S64x64x8_S32x2_S32x8_1_01_n_n_01_1_118 : GatherDims S64x64x8 S32x2 S32x8 where
  offsetDims := [1]
  collapsedSliceDims := [0, 1]
  operandBatchingDims := []
  startIndicesBatchingDims := []
  startIndexMap := [0, 1]
  indexVectorDim := 1
  sliceSizes := ![1, 1, 8]
  wf := gather_S64x64x8_S32x2_S32x8_1_01_n_n_01_1_118_wf
def gather_S64x64x32_S32x2_S32x32_1_01_n_n_01_1_1132 : GatherDims S64x64x32 S32x2 S32x32 where
  offsetDims := [1]
  collapsedSliceDims := [0, 1]
  operandBatchingDims := []
  startIndicesBatchingDims := []
  startIndexMap := [0, 1]
  indexVectorDim := 1
  sliceSizes := ![1, 1, 32]
  wf := gather_S64x64x32_S32x2_S32x32_1_01_n_n_01_1_1132_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S64x64x32_S32x32_S64x64x32_2_0_01_1_n_n : DotDims S64x64x32 S32x32 S64x64x32 where
  lhsContracting := [2]
  rhsContracting := [0]
  lhsNonContracting := [0, 1]
  rhsNonContracting := [1]
  lhsBatch := []
  rhsBatch := []
  wf := dot_S64x64x32_S32x32_S64x64x32_2_0_01_1_n_n_wf

class Facts : Prop extends Facts₀ where

variable [Facts]
-- ==== Proof.Spec.lean ====
/-
  The result both programs compute, as one function of the three argument arrays, index by index on the
  extended reals.

  Thirty-two "stations" sit on the 64 x 64 grid: station k at row 7k mod 64, column 13k mod 64. With
    r_k   = R[station k, :]                     (the station's 8 context channels)
    g_k   = x[station k, :]                     (the station's 32 features)
    proj  = g @ W,   proj[k, f] = sum_j g_k[j] * W[j, f]
  the result at grid cell (i, j) and feature f is
    sum_k sim(i, j, k) * proj[k, f],
  where the similarity of cell (i, j) to station k is a sum over the 8 channels c of
    exp(-|r_k[c] - R[i, j, c]|)                                   (one program), or
    min(exp(0 - r_k[c]) * exp(R[i,j,c]), exp(r_k[c]) * exp(0 - R[i,j,c]))      (the other).
  For real a, b:  exp(-a) * exp(b) = exp(b - a),  exp(a) * exp(-b) = exp(a - b),  and the smaller of the two
  exponents is -|a - b|; so the two similarities agree wherever R is finite (at an infinity they need not).
-/
import Idealize.ShloMosaic.PureOps.Ideal
import Idealize.ShloMosaic.Lib.ValueIdx

noncomputable section

namespace Cert.Station

open Idealize.ShloMosaic Idealize.ShloMosaic.ValueIdx

/-- The shapes of the three arguments (and of the result, which has x's shape). -/
abbrev SX : Shape := ⟨3, ![64, 64, 32]⟩
abbrev SW : Shape := ⟨2, ![32, 32]⟩
abbrev SR : Shape := ⟨3, ![64, 64, 8]⟩

/-- Station k's grid row, 7k mod 64. -/
def sx (k : Fin 32) : Fin 64 := ⟨7 * k.val % 64, Nat.mod_lt _ (by norm_num)⟩
/-- Station k's grid column, 13k mod 64. -/
def sy (k : Fin 32) : Fin 64 := ⟨13 * k.val % 64, Nat.mod_lt _ (by norm_num)⟩

/-- proj[k, f]: station k's feature row times column f of W. -/
def proj (x : FVec Ideal SX .f32) (W : FVec Ideal SW .f32) (k f : Fin 32) : EReal :=
  ∑ j : Fin 32, x (ix3 (sx k) (sy k) j) * W (ix2 j f)

/-- The similarity of cell (i, j) to station k through the absolute difference: sum over channels of exp(-|r - R|),
    the absolute value spelt max(d, -d). -/
def simAbs (R : FVec Ideal SR .f32) (i j : Fin 64) (k : Fin 32) : EReal :=
  ∑ c : Fin 8, Ideal.exp (-(max (R (ix3 (sx k) (sy k) c) - R (ix3 i j c)) (-(R (ix3 (sx k) (sy k) c) - R (ix3 i j c)))))

/-- The same similarity through four exponentials and a minimum, negation spelt 0 - t. -/
def simMin (R : FVec Ideal SR .f32) (i j : Fin 64) (k : Fin 32) : EReal :=
  ∑ c : Fin 8, min (Ideal.exp (0 - R (ix3 (sx k) (sy k) c)) * Ideal.exp (R (ix3 i j c)))
    (Ideal.exp (R (ix3 (sx k) (sy k) c)) * Ideal.exp (0 - R (ix3 i j c)))

/-- The result at (i, j, f), similarity first: sum_k simAbs * proj. -/
def refAt (x : FVec Ideal SX .f32) (W : FVec Ideal SW .f32) (R : FVec Ideal SR .f32) (i j : Fin 64) (f : Fin 32) : EReal :=
  ∑ k : Fin 32, simAbs R i j k * proj x W k f
/-- The result at (i, j, f), projection first: sum_k proj * simMin. -/
def kerAt (x : FVec Ideal SX .f32) (W : FVec Ideal SW .f32) (R : FVec Ideal SR .f32) (i j : Fin 64) (f : Fin 32) : EReal :=
  ∑ k : Fin 32, proj x W k f * simMin R i j k

/-- The whole result array, in the first spelling. -/
def refG (x : FVec Ideal SX .f32) (W : FVec Ideal SW .f32) (R : FVec Ideal SR .f32) : FVec Ideal SX .f32 :=
  fun q => refAt x W R (q 0) (q 1) (q 2)
/-- The whole result array, in the second spelling. -/
def kerG (x : FVec Ideal SX .f32) (W : FVec Ideal SW .f32) (R : FVec Ideal SR .f32) : FVec Ideal SX .f32 :=
  fun q => kerAt x W R (q 0) (q 1) (q 2)

theorem refG_ix3 (x : FVec Ideal SX .f32) (W : FVec Ideal SW .f32) (R : FVec Ideal SR .f32) (i j : Fin 64) (f : Fin 32) :
    refG x W R (ix3 i j f) = refAt x W R i j f := rfl
theorem kerG_ix3 (x : FVec Ideal SX .f32) (W : FVec Ideal SW .f32) (R : FVec Ideal SR .f32) (i j : Fin 64) (f : Fin 32) :
    kerG x W R (ix3 i j f) = kerAt x W R i j f := rfl

end Cert.Station

end
-- ==== Proof.KerGather.lean ====
/-
  The kernel's two static gathers, read at an index.

  The 64 x 64 grid is flattened to 4096 points; station k sits at flat position g(k) = 64 * row + column.
  * The feature array arrives as 1024 rows of 128 lanes, four points per row: point g occupies row g / 4, lanes
    32 * (g mod 4) .. 32 * (g mod 4) + 31. Taking that 1 x 32 piece for each station and stacking the 32 pieces
    gives the 32 x 32 array whose row k is station k's feature vector.
  * The context array arrives as 8 channels by 4096 points. Taking column g(k) for each station and laying the 32
    columns side by side gives the 8 x 32 array whose column k is station k's channel vector.
  Both are pure re-arrangements: entry (k, j) of the first is the source at (g(k) / 4, 32 * (g(k) mod 4) + j), entry
  (c, k) of the second is the source at (c, g(k)).
-/
import proofs.«123584_g48833778155979_cont_8to1_c_18_28_alg».proof.Proof.Gen.KernelIdeal.Skeleton
import Idealize.ShloMosaic.Lib.Pipeline.Value
import Idealize.ShloMosaic.Lib.ValueIdx

noncomputable section

namespace Cert.KernelIdeal.KerValue

open Cert.KernelIdeal Cert.KernelIdeal.Gen Idealize.ShloMosaic Idealize.ShloMosaic.ValueIdx

variable {F : FTy → Type} [FloatOps F]

/-- Station k's flat position 64 * row + column among the 4096 grid points. -/
def gidT : Fin 32 → ℕ :=
  ![0, 461, 922, 1383, 1844, 2241, 2702, 3163, 3624, 4085, 386, 847, 1308, 1769, 2230, 2627, 3088, 3549, 4010, 375, 772, 1233,
    1694, 2155, 2616, 3013, 3474, 3935, 300, 761, 1158, 1619]

theorem gidT_lt : ∀ k : Fin 32, gidT k < 4096 := by decide

/-- The 1 x 32 piece of the 1024 x 128 array that holds point g(k)'s features lies inside the array. -/
theorem rowSlices (k : Fin 32) : S1024x128.Slices ![gidT k / 4, gidT k % 4 * 32] S1x32 := by
  revert k; decide

/-- The 8 x 1 column of the 8 x 4096 array at point g(k) lies inside the array. -/
theorem colSlices (k : Fin 32) : S8x4096.Slices ![0, gidT k] S8x1 := by
  revert k; decide

/-- Row k of the stacked station features is the 1024 x 128 array's piece for point g(k). -/
theorem stationRows_at (x0 : Vec F S1024x128 .f32) (k j : Fin 32) :
    k0_pay4 x0 (ix2 k j)
      = x0 (ix2 (⟨gidT k / 4, by have := gidT_lt k; omega⟩ : Fin 1024) (⟨gidT k % 4 * 32 + j.val, by have := j.isLt; omega⟩ : Fin 128)) := by
  unfold k0_pay4
  rw [shapeCast_self]
  show concatenate S32x32 0
      (List.ofFn fun n : Fin 32 => (⟨S1x32, extractStridedSlice S1x32 ![gidT n / 4, gidT n % 4 * 32] x0 (rowSlices n)⟩ :
        (s : Shape) × (s.Idx → F .f32))) _ (ix2 k j) = _
  refine (concatenate_ofFn_unit_apply (t := S32x32) (s₁ := S1x32) (0 : Fin 2)
    (fun n : Fin 32 => extractStridedSlice S1x32 ![gidT n / 4, gidT n % 4 * 32] x0 (rowSlices n)) _ rfl rfl (ix2 k j) k rfl
    (ix2 (0 : Fin 1) j) ?_).trans ?_
  · intro b hb
    match b with
    | ⟨0, _⟩ => exact absurd rfl hb
    | ⟨1, _⟩ => rfl
  · refine extractStridedSlice_apply _ _ _ _ _ fun a => ?_
    match a with
    | ⟨0, _⟩ => show gidT k / 4 = gidT k / 4 + 0; omega
    | ⟨1, _⟩ => rfl

/-- Column k of the side-by-side station contexts is the 8 x 4096 array's column at point g(k). -/
theorem stationCols_at (x2 : Vec F S8x4096 .f32) (c : Fin 8) (k : Fin 32) :
    k0_pay1 (k0_pay3 x2) (k0_pay5 x2) (k0_pay6 x2) (k0_pay7 x2) (k0_pay8 x2) (k0_pay9 x2) (k0_pay10 x2) (k0_pay11 x2) (k0_pay12 x2) (k0_pay13 x2) (k0_pay14 x2) (k0_pay15 x2) (k0_pay16 x2) (k0_pay17 x2) (k0_pay18 x2) (k0_pay19 x2) (k0_pay20 x2) (k0_pay21 x2) (k0_pay22 x2) (k0_pay23 x2) (ix2 c k)
      = x2 (ix2 c (⟨gidT k, gidT_lt k⟩ : Fin 4096)) := by
  unfold k0_pay1 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay3
  rw [shapeCast_self]
  show concatenate S8x32 1
      (List.ofFn fun n : Fin 32 => (⟨S8x1, extractStridedSlice S8x1 ![0, gidT n] x2 (colSlices n)⟩ :
        (s : Shape) × (s.Idx → F .f32))) _ (ix2 c k) = _
  refine (concatenate_ofFn_unit_apply (t := S8x32) (s₁ := S8x1) (1 : Fin 2)
    (fun n : Fin 32 => extractStridedSlice S8x1 ![0, gidT n] x2 (colSlices n)) _ rfl rfl (ix2 c k) k rfl
    (ix2 c (0 : Fin 1)) ?_).trans ?_
  · intro b hb
    match b with
    | ⟨0, _⟩ => rfl
    | ⟨1, _⟩ => exact absurd rfl hb
  · refine extractStridedSlice_apply _ _ _ _ _ fun a => ?_
    match a with
    | ⟨0, _⟩ => show c.val = 0 + c.val; omega
    | ⟨1, _⟩ => show gidT k = gidT k + 0; omega

end Cert.KernelIdeal.KerValue

end
-- ==== Proof.KerHost.lean ====
/-
  The plain re-layouts around the kernel, read at an index.

  Before the kernel: the feature array x [64, 64, 32] is re-read as 1024 rows of 128 lanes (row-major order kept), and
  the context array R [64, 64, 8] as 4096 points by 8 channels, then transposed to 8 x 4096. After it: the 32 x 4096
  result is transposed to 4096 x 32 and re-read as [64, 64, 32]. With g = 64 * i + j the flat position of cell (i, j):
    * row g / 4, lane 32 * (g mod 4) + l of the 1024 x 128 array is x[i, j, l]   (128 * (g / 4) + 32 * (g mod 4) = 32 * g);
    * entry (c, p) of the 8 x 4096 array is R[p / 64, p mod 64, c];
    * entry (i, j, f) of the final array is entry (f, 64 * i + j) of the kernel's 32 x 4096 output.
  Station k's flat position g(k) is 64 * (7k mod 64) + (13k mod 64).
-/
import proofs.«123584_g48833778155979_cont_8to1_c_18_28_alg».proof.Proof.Gen.KernelIdeal.Frame
import proofs.«123584_g48833778155979_cont_8to1_c_18_28_alg».proof.Proof.Spec
import proofs.«123584_g48833778155979_cont_8to1_c_18_28_alg».proof.Proof.KerGather
import Idealize.ShloMosaic.Lib.Pipeline.Value
import Idealize.ShloMosaic.Lib.StableHlo.Run
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.ValueIdx Cert.Station

variable (m : (ℓ : Loc nD τ sig) → Buf (Elt Ideal) ℓ)

/-- The table of flat station positions is 64 * row + column of the station's grid cell. -/
theorem gidT_eq : ∀ k : Fin 32, gidT k = (sx k).val * 64 + (sy k).val := by decide

/-- The feature array as the kernel finds it: x re-read as 1024 x 128. -/
theorem V_v0 (c : Dev nD) :
    (V m c main_v0 : S1024x128.Idx → EReal)
      = shapeCast S1024x128 (m ((c : Thread nD τ).loc main_arg0) : S64x64x32.Idx → EReal) Facts₀.shapeCasts_S64x64x32_S1024x128 := by
  show StableHlo.after hostOps0 (fun b => m (c, b)) (Proc.devRef .tc main_v0) = _
  after_results
  rfl

/-- The context array as the kernel finds it: R re-read as 4096 x 8 and transposed. -/
theorem V_v2 (c : Dev nD) :
    (V m c main_v2 : S8x4096.Idx → EReal)
      = transpose S8x4096 [1, 0]
          (shapeCast S4096x8 (m ((c : Thread nD τ).loc main_arg2) : S64x64x8.Idx → EReal) Facts₀.shapeCasts_S64x64x8_S4096x8)
          Facts₀.transposes_S4096x8_S8x4096_1_0 := by
  show StableHlo.after hostOps0 (fun b => m (c, b)) (Proc.devRef .tc main_v2) = _
  after_results
  rfl

/-- The 32 lanes of the 1024 x 128 array that belong to station k hold x[station k, :]. -/
theorem v0_at (c : Dev nD) (k j : Fin 32) :
    (V m c main_v0 : S1024x128.Idx → EReal)
        (ix2 (⟨gidT k / 4, by have := gidT_lt k; omega⟩ : Fin 1024) (⟨gidT k % 4 * 32 + j.val, by have := j.isLt; omega⟩ : Fin 128))
      = (m ((c : Thread nD τ).loc main_arg0) : S64x64x32.Idx → EReal) (ix3 (sx k) (sy k) j) := by
  rw [V_v0]
  refine shapeCast_apply _ _ _ (ix3 (sx k) (sy k) j) ?_
  rw [Shape.rowMajor_val_two, Shape.rowMajor_val_three]
  show ((sx k).val * 64 + (sy k).val) * 32 + j.val = gidT k / 4 * 128 + (gidT k % 4 * 32 + j.val)
  have := gidT_eq k
  omega

/-- Entry (ch, p) of the 8 x 4096 array is R at cell (p / 64, p mod 64), channel ch. -/
theorem v2_at (c : Dev nD) (ch : Fin 8) (p : Fin 4096) :
    (V m c main_v2 : S8x4096.Idx → EReal) (ix2 ch p)
      = (m ((c : Thread nD τ).loc main_arg2) : S64x64x8.Idx → EReal)
          (ix3 (⟨p.val / 64, by have := p.isLt; omega⟩ : Fin 64) (⟨p.val % 64, Nat.mod_lt _ (by norm_num)⟩ : Fin 64) ch) := by
  rw [V_v2]
  refine (transpose_apply _ _ _ _ (ix2 p ch) ?_).trans ?_
  · intro b
    match b with
    | ⟨0, _⟩ => rfl
    | ⟨1, _⟩ => rfl
  · refine shapeCast_apply (s := S64x64x8) (t := S4096x8) _ _ _
      (ix3 (⟨p.val / 64, by have := p.isLt; omega⟩ : Fin 64) (⟨p.val % 64, Nat.mod_lt _ (by norm_num)⟩ : Fin 64) ch) ?_
    rw [Shape.rowMajor_val_two, Shape.rowMajor_val_three]
    show (p.val / 64 * 64 + p.val % 64) * 8 + ch.val = p.val * 8 + ch.val
    omega

/-- In particular station k's column g(k) of the 8 x 4096 array holds R[station k, :]. -/
theorem v2_station (c : Dev nD) (ch : Fin 8) (k : Fin 32) :
    (V m c main_v2 : S8x4096.Idx → EReal) (ix2 ch (⟨gidT k, gidT_lt k⟩ : Fin 4096))
      = (m ((c : Thread nD τ).loc main_arg2) : S64x64x8.Idx → EReal) (ix3 (sx k) (sy k) ch) := by
  rw [v2_at]
  refine congrArg _ (funext fun a => Fin.ext ?_)
  have := gidT_eq k
  have h1 := (sx k).isLt
  have h2 := (sy k).isLt
  match a with
  | ⟨0, _⟩ => show gidT k / 64 = (sx k).val; omega
  | ⟨1, _⟩ => show gidT k % 64 = (sy k).val; omega
  | ⟨2, _⟩ => rfl

/-- The program's result after the lines that follow the kernel: entry (i, j, f) is entry (f, 64 i + j) of the kernel's
    output array as the run leaves it. -/
theorem tail_at (c : Dev nD) (i j : Fin 64) (f : Fin 32) :
    (Pipeline.afterTail₀ cfgs (dats m) 0 (V0 m) [hostOps1] c main_v5 : S64x64x32.Idx → EReal) (ix3 i j f)
      = ((dats m 0 c).arrAt 3 cfg0.N : S32x4096.Idx → EReal)
          (ix2 f (⟨i.val * 64 + j.val, by have := i.isLt; have := j.isLt; omega⟩ : Fin 4096)) := by
  have e : (Pipeline.afterTail₀ cfgs (dats m) 0 (V0 m) [hostOps1] c main_v5 : S64x64x32.Idx → EReal)
      = shapeCast S64x64x32
          (transpose S4096x32 [1, 0]
            (Pipeline.withArrays (cfgs 0).spec c (V0 m c) (fun w => (dats m 0 c).arrAt w (cfgs 0).N) (Proc.devRef .tc main_v3) :
              S32x4096.Idx → EReal)
            Facts₀.transposes_S32x4096_S4096x32_1_0)
          Facts₀.shapeCasts_S4096x32_S64x64x32 := by
    unfold Pipeline.afterTail₀
    show StableHlo.after hostOps1 _ (Proc.devRef .tc main_v5) = _
    after_results
    rfl
  rw [e]
  refine (shapeCast_apply _ _ _ (ix2 (⟨i.val * 64 + j.val, by have := i.isLt; have := j.isLt; omega⟩ : Fin 4096) f) ?_).trans ?_
  · rw [Shape.rowMajor_val_two, Shape.rowMajor_val_three]
    show (i.val * 64 + j.val) * 32 + f.val = (i.val * 64 + j.val) * 32 + f.val
    rfl
  refine (transpose_apply _ _ _ _ (ix2 f (⟨i.val * 64 + j.val, by have := i.isLt; have := j.isLt; omega⟩ : Fin 4096)) ?_).trans ?_
  · intro b
    match b with
    | ⟨0, _⟩ => rfl
    | ⟨1, _⟩ => rfl
  · exact congrFun (Pipeline.withArrays_arr spec0 launch0.win.arr_inj c _ _ 3) _

end Cert.KernelIdeal.KerValue

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KerPay.lean ====
/-
  The kernel's arithmetic, read at one entry of its result.

  The kernel forms proj = g @ W (a 32 x 32 product contracting the left operand's columns with the right operand's
  rows), the four exponentials exp(R), exp(0 - R), exp(r), exp(0 - r) of the transposed context R (8 x 4096) and of
  the stations' contexts r (8 x 32), the three-way array
    term[c, k, p] = min(exp(0 - r[c, k]) * exp(R[c, p]), exp(r[c, k]) * exp(0 - R[c, p]))
  (each factor reshaped to 8 x 32 x 1 or 8 x 1 x 4096 and repeated along the missing axis), its sum over the channel
  axis c, and finally the product of proj with that sum contracting BOTH operands' first axes:
    result[f, p] = sum_k proj[k, f] * (sum_c term[c, k, p]).
  Each step is read at an index: a product into a zero block is the plain sum of products over the contracted axis;
  a reshape keeps the row-major position; a repetition along an axis forgets that axis's coordinate; a sum over the
  leading axis puts the summation variable in the first coordinate.
-/
import proofs.«123584_g48833778155979_cont_8to1_c_18_28_alg».proof.Proof.Gen.KernelIdeal.Skeleton
import proofs.«123584_g48833778155979_cont_8to1_c_18_28_alg».proof.Proof.LibMatmulRead
import Idealize.ShloMosaic.Lib.ValueIdx
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx
open scoped BigOperators

/-! ## A product contracting both operands' first axes -/

section ColsByCols

variable {a K b : ℕ} (D : DotDims (⟨2, ![K, a]⟩ : Shape) (⟨2, ![K, b]⟩ : Shape) (⟨2, ![a, b]⟩ : Shape))

/-- "Columns by columns": each operand's first axis is contracted, each operand's second axis survives, and there is
    no batch axis: the product of the transpose of a K x a array with a K x b array. -/
structure ColsByCols : Prop where
  lc : D.lhsContracting = [0]
  rc : D.rhsContracting = [0]
  ln : D.lhsNonContracting = [1]
  rn : D.rhsNonContracting = [1]
  lb : D.lhsBatch = []
  rb : D.rhsBatch = []

/-- An index read at two equal positions gives equal coordinates. -/
theorem val_at_eq {s : Shape} (j : s.Idx) (u v : Nat) (hu : u < s.rank) (hv : v < s.rank) (h : u = v) :
    (j ⟨u, hu⟩).val = (j ⟨v, hv⟩).val := by subst h; rfl

variable {D}

/-- The left operand's surviving coordinate is the result's row. -/
theorem lhsIdx_snd (h : ColsByCols D) (j : (⟨2, ![a, b]⟩ : Shape).Idx) (κ : D.contr.Idx) :
    (D.lhsIdx j κ 1).val = (j 0).val := by
  have hb : (1 : Fin (⟨2, ![K, a]⟩ : Shape).rank) ∉ D.lhsBatch := by rw [h.lb]; exact List.not_mem_nil
  have hn : (1 : Fin (⟨2, ![K, a]⟩ : Shape).rank) ∈ D.lhsNonContracting := by rw [h.ln]; exact List.mem_singleton.mpr rfl
  unfold DotDims.lhsIdx
  rw [dif_neg hb, dif_pos hn]
  simp only [Fin.val_cast]
  exact val_at_eq j _ _ _ _ (by simp [h.lb, h.ln])

/-- The right operand's surviving coordinate is the result's column. -/
theorem rhsIdx_snd (h : ColsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_at_eq j _ _ _ _ (by simp [h.lb, h.ln, h.rn])

/-- Into a zero accumulator, entry (p, q) of such a product is the sum over k of lhs[k, p] * rhs[k, q]. -/
theorem matmul_zero_cols (h : ColsByCols D) (hr : D.contr.rank = 1) (hs : D.contr.size ⟨0, by omega⟩ = K)
    (prec : Option ContractPrecision) {φ₁ φ₂ : FTy} (lhs : FVec Ideal (⟨2, ![K, a]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 k p) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun ax => Fin.ext (by
    match ax with
    | ⟨0, _⟩ => exact (D.lhsIdx_val_of_single h.lc _ _).trans hk
    | ⟨1, _⟩ => exact lhsIdx_snd h _ _)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_snd h _ _)
  rw [el, er]

end ColsByCols

/-! ## The reshapes and repetitions of the three-way term -/

/-- An 8 x 32 array reshaped to 8 x 32 x 1 and repeated along the last axis reads the array at (c, k). -/
theorem rep_last {α : Type} (A : S8x32.Idx → α) (h1 : S8x32.ShapeCasts S8x32x1) (h2 : S8x32x1.Broadcasts S8x32x4096)
    (c : Fin 8) (k : Fin 32) (p : Fin 4096) :
    broadcastTo S8x32x4096 (shapeCast S8x32x1 A h1) h2 (ix3 c k p) = A (ix2 c k) := by
  rw [broadcastTo_apply _ h2 (ix3 c k p) (ix3 c k (0 : Fin 1)) (by
    intro ax
    match ax with
    | ⟨0, _⟩ => rfl
    | ⟨1, _⟩ => rfl
    | ⟨2, _⟩ => rfl)]
  refine shapeCast_apply A h1 (ix3 c k (0 : Fin 1)) (ix2 c k) ?_
  rw [Shape.rowMajor_val_two, Shape.rowMajor_val_three]
  simp

/-- An 8 x 4096 array reshaped to 8 x 1 x 4096 and repeated along the middle axis reads the array at (c, p). -/
theorem rep_mid {α : Type} (B : S8x4096.Idx → α) (h1 : S8x4096.ShapeCasts S8x1x4096) (h2 : S8x1x4096.Broadcasts S8x32x4096)
    (c : Fin 8) (k : Fin 32) (p : Fin 4096) :
    broadcastTo S8x32x4096 (shapeCast S8x1x4096 B h1) h2 (ix3 c k p) = B (ix2 c p) := by
  rw [broadcastTo_apply _ h2 (ix3 c k p) (ix3 c (0 : Fin 1) p) (by
    intro ax
    match ax with
    | ⟨0, _⟩ => rfl
    | ⟨1, _⟩ => rfl
    | ⟨2, _⟩ => rfl)]
  refine shapeCast_apply B h1 (ix3 c (0 : Fin 1) p) (ix2 c p) ?_
  rw [Shape.rowMajor_val_two, Shape.rowMajor_val_three]
  simp

/-- Summing an 8 x 32 x 4096 array over its first axis: above entry (k, p) of the result, at summation value c, sits
    entry (c, k, p). -/
theorem lift_first (h : S8x32x4096.Reduces [0] S32x4096) (k : Fin 32) (p : Fin 4096) (c : Fin 8) :
    h.lift (ix2 k p) c = ix3 c k p := by
  funext ax
  apply Fin.ext
  show h.liftVal (ix2 k p) c.val ax = (ix3 c k p ax).val
  unfold Shape.Reduces.liftVal
  match ax with
  | ⟨0, _⟩ => simp
  | ⟨1, _⟩ => simp
  | ⟨2, _⟩ => simp

/-! ## The result at an entry -/

/-- Entry (f, p) of the result: the sum over stations k of proj[k, f] times the similarity sum over channels c of
    min(exp(0 - r[c, k]) * exp(R[c, p]), exp(r[c, k]) * exp(0 - R[c, p])). -/
theorem pay2_at (v3 : FVec Ideal S8x4096 .f32) (v36 : FVec Ideal S32x32 .f32) (v69 : FVec Ideal S8x32 .f32)
    (v70 : Vec Ideal S32x32 .f32) (f : Fin 32) (p : Fin 4096) :
    k0_pay2 v3 v36 v69 v70 (ix2 f p)
      = ∑ k : Fin 32, (∑ j : Fin 32, v36 (ix2 k j) * v70 (ix2 j f))
          * (∑ c : Fin 8, min (Ideal.exp (0 - v69 (ix2 c k)) * Ideal.exp (v3 (ix2 c p)))
              (Ideal.exp (v69 (ix2 c k)) * Ideal.exp (0 - v3 (ix2 c p)))) := by
  unfold k0_pay2
  refine (matmul_zero_cols (D := dot_S32x32_S32x4096_S32x4096_0_0_1_1_n_n) ⟨rfl, rfl, rfl, rfl, rfl, rfl⟩ rfl rfl
    none _ _ f p).trans ?_
  refine Finset.sum_congr rfl fun k _ => ?_
  refine congrArg₂ (· * ·) ?_ ?_
  · exact MatmulRead.matmul_zero_ix2 (D := dot_S32x32_S32x32_S32x32_1_0_0_1_n_n) ⟨rfl, rfl, rfl, rfl, rfl, rfl⟩ rfl rfl
      none (φ₁ := .f32) (φ₂ := .f32) v36 v70 k f
  · refine (Ideal.multiReduction_add_single _ 0x00000000#32 reduces_S8x32x4096_S32x4096 (.inl rfl) rfl (ix2 k p)).trans ?_
    refine Finset.sum_congr rfl fun c _ => ?_
    have hl := lift_first reduces_S8x32x4096_S32x4096 k p c
    rw [hl]
    refine congrArg₂ min (congrArg₂ (· * ·) ?_ ?_) (congrArg₂ (· * ·) ?_ ?_)
    · refine (rep_last _ _ _ c k p).trans ?_
      show Ideal.exp (Ideal.ofBits .f32 0x00000000#32 - v69 (ix2 c k)) = _
      rw [Ideal.ofBits_zero_f32]
    · exact rep_mid _ _ _ c k p
    · exact rep_last _ _ _ c k p
    · refine (rep_mid _ _ _ c k p).trans ?_
      show Ideal.exp (Ideal.ofBits .f32 0x00000000#32 - v3 (ix2 c p)) = _
      rw [Ideal.ofBits_zero_f32]

end Cert.KernelIdeal.KerValue

end
-- ==== Proof.KerValue.lean ====
/-
  The kernel program's result as one function of the three arguments.

  The kernel has no grid: each operand is staged whole, the body runs once and stores one 32 x 4096 block, which is
  written back whole. So the output array after the run is the body's stored value computed from the arrays as the
  kernel finds them. Entry (f, p) of that value is
      sum_k proj[k, f] * simMin(p / 64, p mod 64, k),
  the station features and station contexts being read out of the re-laid-out arguments at the stations' flat
  positions. The lines after the kernel move entry (f, 64 i + j) to (i, j, f), which gives the specification's second
  spelling of the result.
-/
import proofs.«123584_g48833778155979_cont_8to1_c_18_28_alg».proof.Proof.KerHost
import proofs.«123584_g48833778155979_cont_8to1_c_18_28_alg».proof.Proof.KerPay

noncomputable section

namespace Cert.KernelIdeal.KerValue

open Cert.KernelIdeal Cert.KernelIdeal.Gen Idealize.ShloMosaic Idealize.ShloMosaic.TcCoe Idealize.SL.Sem
open Idealize.ShloMosaic.ValueIdx Cert.Station
open Idealize.ShloMosaic.Pipeline (Dat)

/-- Both offsets of a whole-block access are zero. -/
theorem hz : (![0, 0] : Fin 2 → Nat) = fun _ => 0 := funext fun a => by fin_cases a <;> rfl

/-- The body's stored block at (f, p), from the three blocks it loads: station rows of the first times the second,
    contracted over stations with the min-of-products similarity built from the third. -/
theorem out_var (x0 : Vec Ideal S1024x128 .f32) (x1 : Vec Ideal S32x32 .f32) (x2 : Vec Ideal S8x4096 .f32) (f : Fin 32) (p : Fin 4096) :
    out0_3 x0 x1 x2 (ix2 f p)
      = ∑ k : Fin 32,
          (∑ j : Fin 32, x0 (ix2 (⟨gidT k / 4, by have := gidT_lt k; omega⟩ : Fin 1024)
              (⟨gidT k % 4 * 32 + j.val, by have := j.isLt; omega⟩ : Fin 128)) * x1 (ix2 j f))
          * (∑ ch : Fin 8, min (Ideal.exp (0 - x2 (ix2 ch (⟨gidT k, gidT_lt k⟩ : Fin 4096))) * Ideal.exp (x2 (ix2 ch p)))
              (Ideal.exp (x2 (ix2 ch (⟨gidT k, gidT_lt k⟩ : Fin 4096))) * Ideal.exp (0 - x2 (ix2 ch p)))) := by
  unfold out0_3
  rw [View.canon_unit_zero hz]
  simp only [View.ld_unit_zero (S := S1024x128) hz, View.ld_unit_zero (S := S8x4096) hz, View.ld_unit_zero (S := S32x32) hz]
  rw [pay2_at]
  refine Finset.sum_congr rfl fun k _ => ?_
  have hrow : ∀ j : Fin 32, k0_pay4 x0 (ix2 k j)
      = x0 (ix2 (⟨gidT k / 4, by have := gidT_lt k; omega⟩ : Fin 1024) (⟨gidT k % 4 * 32 + j.val, by have := j.isLt; omega⟩ : Fin 128)) :=
    fun j => stationRows_at x0 k j
  have hcol : ∀ ch : Fin 8, _ = x2 (ix2 ch (⟨gidT k, gidT_lt k⟩ : Fin 4096)) := fun ch => stationCols_at x2 ch k
  have hpt : ∀ ch : Fin 8, k0_pay3 x2 (ix2 ch p) = x2 (ix2 ch p) := fun ch => by unfold k0_pay3; rw [shapeCast_self]
  simp only [hrow, hcol, hpt]

variable (m : (ℓ : Loc nD τ sig) → Buf (Elt Ideal) ℓ)

/-- The kernel's output array after the run, as a function of the arguments: entry (f, p) is the specification's
    second spelling at cell (p / 64, p mod 64) and feature f. -/
def outG (x : S64x64x32.Idx → EReal) (W : S32x32.Idx → EReal) (R : S64x64x8.Idx → EReal) : S32x4096.Idx → EReal :=
  fun q => kerAt x W R (⟨(q 1).val / 64, by have := idx2_lt1 q; omega⟩ : Fin 64) (⟨(q 1).val % 64, Nat.mod_lt _ (by norm_num)⟩ : Fin 64) (q 0)

/-- Each operand's block is the whole array (block index 0, the block's extents the array's). -/
theorem iblk0_eq (c : Dev nD) (t : Fin cfg0.N) : (iblk m c 0 t : S1024x128.Idx → EReal) = (V m c main_v0 : S1024x128.Idx → EReal) := by
  funext y
  show (V m c main_v0 : S1024x128.Idx → EReal) (((cfg0.win 0).blk t).view.emb y) = _
  refine congrArg _ (funext fun a => Fin.ext ?_)
  match a with
  | ⟨0, _⟩ => show 0 * 1024 + 1 * (y ⟨0, _⟩).val = (y ⟨0, _⟩).val; omega
  | ⟨1, _⟩ => show 0 * 128 + 1 * (y ⟨1, _⟩).val = (y ⟨1, _⟩).val; omega

theorem iblk1_eq (c : Dev nD) (t : Fin cfg0.N) : (iblk m c 1 t : S32x32.Idx → EReal) = (V m c main_arg1 : S32x32.Idx → EReal) := by
  funext y
  show (V m c main_arg1 : S32x32.Idx → EReal) (((cfg0.win 1).blk t).view.emb y) = _
  refine congrArg _ (funext fun a => Fin.ext ?_)
  match a with
  | ⟨0, _⟩ => show 0 * 32 + 1 * (y ⟨0, _⟩).val = (y ⟨0, _⟩).val; omega
  | ⟨1, _⟩ => show 0 * 32 + 1 * (y ⟨1, _⟩).val = (y ⟨1, _⟩).val; omega

theorem iblk2_eq (c : Dev nD) (t : Fin cfg0.N) : (iblk m c 2 t : S8x4096.Idx → EReal) = (V m c main_v2 : S8x4096.Idx → EReal) := by
  funext y
  show (V m c main_v2 : S8x4096.Idx → EReal) (((cfg0.win 2).blk t).view.emb y) = _
  refine congrArg _ (funext fun a => Fin.ext ?_)
  match a with
  | ⟨0, _⟩ => show 0 * 8 + 1 * (y ⟨0, _⟩).val = (y ⟨0, _⟩).val; omega
  | ⟨1, _⟩ => show 0 * 4096 + 1 * (y ⟨1, _⟩).val = (y ⟨1, _⟩).val; omega

/-- What the body leaves in the output's staging buffer is the function above of the arguments. -/
theorem body_eq (c : Dev nD) (t : Fin cfg0.N) :
    (out0_3 (iblk m c 0 t) (iblk m c 1 t) (iblk m c 2 t) : S32x4096.Idx → EReal)
      = outG (m ((c : Thread nD τ).loc main_arg0)) (m ((c : Thread nD τ).loc main_arg1)) (m ((c : Thread nD τ).loc main_arg2)) := by
  funext q
  obtain ⟨f, p, rfl⟩ : ∃ (f : Fin 32) (p : Fin 4096), q = ix2 f p := ⟨q 0, q 1, eq_ix2 q⟩
  refine (out_var (iblk m c 0 t) (iblk m c 1 t) (iblk m c 2 t) f p).trans ?_
  show _ = kerAt _ _ _ (⟨p.val / 64, _⟩ : Fin 64) (⟨p.val % 64, _⟩ : Fin 64) f
  unfold kerAt proj simMin
  refine Finset.sum_congr rfl fun k _ => ?_
  have e0 : ∀ y, (iblk m c 0 t : S1024x128.Idx → EReal) y = (V m c main_v0 : S1024x128.Idx → EReal) y := congrFun (iblk0_eq m c t)
  have e1 : ∀ y, (iblk m c 1 t : S32x32.Idx → EReal) y = (m ((c : Thread nD τ).loc main_arg1) : S32x32.Idx → EReal) y :=
    fun y => (congrFun (iblk1_eq m c t) y).trans (congrFun (V_main_arg1 m c) y)
  have e2 : ∀ y, (iblk m c 2 t : S8x4096.Idx → EReal) y = (V m c main_v2 : S8x4096.Idx → EReal) y := congrFun (iblk2_eq m c t)
  refine congr (congrArg HMul.hMul (Finset.sum_congr rfl fun j _ => ?_)) (Finset.sum_congr rfl fun ch _ => ?_)
  · exact congr (congrArg HMul.hMul ((e0 _).trans (v0_at m c k j))) (e1 _)
  · have hs : (iblk m c 2 t : S8x4096.Idx → EReal) (ix2 ch (⟨gidT k, gidT_lt k⟩ : Fin 4096))
        = (m ((c : Thread nD τ).loc main_arg2) : S64x64x8.Idx → EReal) (ix3 (sx k) (sy k) ch) := (e2 _).trans (v2_station m c ch k)
    have hp : (iblk m c 2 t : S8x4096.Idx → EReal) (ix2 ch p)
        = (m ((c : Thread nD τ).loc main_arg2) : S64x64x8.Idx → EReal)
            (ix3 (⟨p.val / 64, by have := p.isLt; omega⟩ : Fin 64) (⟨p.val % 64, Nat.mod_lt _ (by norm_num)⟩ : Fin 64) ch) :=
      (e2 _).trans (v2_at m c ch p)
    rw [hs, hp]

/-- The one grid point writes back the whole of that function. -/
theorem flushed_eq (c : Dev nD) (t : Fin cfg0.N) :
    (dats m 0 c).flushed 3 t = ((cfg0.win 3).blk t).view.read (Elt Ideal)
      (outG (m ((c : Thread nD τ).loc main_arg0)) (m ((c : Thread nD τ).loc main_arg1)) (m ((c : Thread nD τ).loc main_arg2))) := by
  show (cfg0.win 3).cut (grid0.coords t) ((dats m 0 c).after 3 t) = _
  rw [after0_3, body_eq]
  funext y
  show outG _ _ _ y = outG _ _ _ (((cfg0.win 3).blk t).view.emb y)
  refine congrArg _ (funext fun a => Fin.ext ?_)
  match a with
  | ⟨0, _⟩ => show (y ⟨0, _⟩).val = 0 * 32 + 1 * (y ⟨0, _⟩).val; omega
  | ⟨1, _⟩ => show (y ⟨1, _⟩).val = 0 * 4096 + 1 * (y ⟨1, _⟩).val; omega

/-- Every index of the output array lies in the one block. -/
theorem mem_blk (t : Fin cfg0.N) (i : S32x4096.Idx) : i ∈ ((cfg0.win 3).blk t).view.set := by
  show i ∈ ((View.whole main_v3).slice (win0_3.rect t)).set
  rw [View.set_slice_whole, Rect.mem_set_unit]
  intro a
  match a with
  | ⟨0, _⟩ => show 0 * 32 ≤ (i 0).val ∧ (i 0).val < 0 * 32 + 32; have := idx2_lt0 i; omega
  | ⟨1, _⟩ => show 0 * 4096 ≤ (i 1).val ∧ (i 1).val < 0 * 4096 + 4096; have := idx2_lt1 i; omega

/-- The output array after the run. -/
theorem final (c : Dev nD) :
    (dats m 0 c).arrAt 3 cfg0.N
      = outG (m ((c : Thread nD τ).loc main_arg0)) (m ((c : Thread nD τ).loc main_arg1)) (m ((c : Thread nD τ).loc main_arg2)) :=
  (dats m 0 c).arrAt_eq_of_cover 3 _ (fun t _ => flushed_eq m c t) (fun i => ⟨t0_0, flush0_3 t0_0, mem_blk t0_0 i⟩)

/-- The program's result buffer after the lines that follow the kernel. -/
theorem result_eq (c : Dev nD) :
    (Pipeline.afterTail₀ cfgs (dats m) 0 (V0 m) [hostOps1] c main_v5 : S64x64x32.Idx → EReal)
      = kerG (m ((c : Thread nD τ).loc main_arg0)) (m ((c : Thread nD τ).loc main_arg1)) (m ((c : Thread nD τ).loc main_arg2)) := by
  funext q
  obtain ⟨i, j, f, rfl⟩ : ∃ (i j : Fin 64) (f : Fin 32), q = ix3 i j f := ⟨q 0, q 1, q 2, eq_ix3 q⟩
  rw [tail_at, final, kerG_ix3]
  show kerAt _ _ _ (⟨(i.val * 64 + j.val) / 64, _⟩ : Fin 64) (⟨(i.val * 64 + j.val) % 64, _⟩ : Fin 64) f = _
  have hi : (⟨(i.val * 64 + j.val) / 64, by have := i.isLt; have := j.isLt; omega⟩ : Fin 64) = i := Fin.ext (by have := j.isLt; show (i.val * 64 + j.val) / 64 = i.val; omega)
  have hj : (⟨(i.val * 64 + j.val) % 64, Nat.mod_lt _ (by norm_num)⟩ : Fin 64) = j := Fin.ext (by have := j.isLt; show (i.val * 64 + j.val) % 64 = j.val; omega)
  rw [hi, hj]

variable (ρ : Dev nD → PrngReg)

/-- Every weakly fair execution of the kernel program ends with the result at the specification's second spelling of
    the arguments, and the arguments unchanged. -/
theorem run : θ_run defs (onTc (τ := τ) (main (F := Ideal))) ⟨m, fun _ => 0, ρ⟩ (fun r => ∀ c : Dev nD,
      r.2.mem ((c.tc : Thread nD τ).loc main_v5)
        = kerG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KerValue

end
-- ==== Proof.Bridge.lean ====
/-
  The two spellings of the similarity agree on finite data.

  For real a, b put d = a - b. Then exp(-a) * exp(b) = exp(-d) and exp(a) * exp(-b) = exp(d); the exponential is
  increasing, so the smaller of the two is exp(min(-d, d)) = exp(-max(d, -d)) = exp(-|d|). This is first shown over
  the reals and then carried to the extended reals, where every operation involved (difference, negation, product,
  maximum, minimum, exponential) sends real arguments to the coercion of the real result. The outer sums are then
  equal term by term, the product of a projection and a similarity being commutative.
-/
import proofs.«123584_g48833778155979_cont_8to1_c_18_28_alg».proof.Proof.Spec
import Mathlib.Analysis.SpecialFunctions.Exp

noncomputable section

namespace Cert.Station

open Idealize.ShloMosaic Idealize.ShloMosaic.ValueIdx

/-- Over the reals: min(exp(-a) exp(b), exp(a) exp(-b)) = exp(-|a - b|), the absolute value spelt max(d, -d). -/
theorem real_min_exp (a b : ℝ) :
    min (Real.exp (-a) * Real.exp b) (Real.exp a * Real.exp (-b))
      = Real.exp (-(max (a - b) (-(a - b)))) := by
  rw [← Real.exp_add, ← Real.exp_add, ← Real.exp_monotone.map_min]
  congr 1
  rw [← min_neg_neg, neg_neg]
  congr 1 <;> ring

/-- The coercion of the reals into the extended reals preserves maxima. -/
theorem coe_max_real (u v : ℝ) : ((max u v : ℝ) : EReal) = max (u : EReal) (v : EReal) :=
  EReal.coe_strictMono.monotone.map_max

/-- The coercion of the reals into the extended reals preserves minima. -/
theorem coe_min_real (u v : ℝ) : ((min u v : ℝ) : EReal) = min (u : EReal) (v : EReal) :=
  EReal.coe_strictMono.monotone.map_min

/-- The same identity on the extended reals at two real arguments, negation spelt 0 - t on one side. -/
theorem ereal_min_exp (a b : ℝ) :
    min (Ideal.exp (0 - (a : EReal)) * Ideal.exp (b : EReal)) (Ideal.exp (a : EReal) * Ideal.exp (0 - (b : EReal)))
      = Ideal.exp (-(max ((a : EReal) - (b : EReal)) (-((a : EReal) - (b : EReal))))) := by
  have h0 : ∀ t : ℝ, (0 : EReal) - (t : EReal) = ((-t : ℝ) : EReal) := fun t => by
    rw [zero_sub, EReal.coe_neg]
  rw [h0 a, h0 b, ← EReal.coe_sub, ← EReal.coe_neg, ← coe_max_real, ← EReal.coe_neg]
  simp only [Ideal.exp_coe]
  rw [← EReal.coe_mul, ← EReal.coe_mul, ← coe_min_real, real_min_exp]

/-- The two similarities of a cell to a station agree when every entry of R is real. -/
theorem simMin_eq_simAbs (R : FVec Ideal SR .f32) (hR : ∀ q : SR.Idx, ∃ r : ℝ, R q = (r : EReal))
    (i j : Fin 64) (k : Fin 32) : simMin R i j k = simAbs R i j k := by
  unfold simMin simAbs
  refine Finset.sum_congr rfl fun c _ => ?_
  obtain ⟨a, ha⟩ := hR (ix3 (sx k) (sy k) c)
  obtain ⟨b, hb⟩ := hR (ix3 i j c)
  rw [ha, hb]
  exact ereal_min_exp a b

/-- The two spellings of the result at one cell and feature agree when every entry of R is real. -/
theorem kerAt_eq_refAt (x : FVec Ideal SX .f32) (W : FVec Ideal SW .f32) (R : FVec Ideal SR .f32)
    (hR : ∀ q : SR.Idx, ∃ r : ℝ, R q = (r : EReal)) (i j : Fin 64) (f : Fin 32) :
    kerAt x W R i j f = refAt x W R i j f := by
  unfold kerAt refAt
  refine Finset.sum_congr rfl fun k _ => ?_
  rw [simMin_eq_simAbs R hR i j k, mul_comm]

/-- The two spellings of the whole result array agree when every entry of R is real. -/
theorem kerG_eq_refG (x : FVec Ideal SX .f32) (W : FVec Ideal SW .f32) (R : FVec Ideal SR .f32)
    (hR : ∀ q : SR.Idx, ∃ r : ℝ, R q = (r : EReal)) : kerG x W R = refG x W R := by
  funext q
  exact kerAt_eq_refAt x W R hR (q 0) (q 1) (q 2)

end Cert.Station

end
-- ==== Proof.Finite.lean ====
/-
  Finiteness out of the precondition.

  The precondition says of each of the three argument arrays that every entry has absolute value strictly below
  plus infinity, and joins the three statements by "and". An "all" over an array is a reduction by "and" from the
  value true; if the reduction is true, every entry it read is true. An extended real x with max(x, -x) below plus
  infinity is neither infinity (at either one, max(x, -x) is plus infinity), so it is a real number.
-/
import proofs.«123584_g48833778155979_cont_8to1_c_18_28_alg».proof.Pre_finite_inputs
import Idealize.ShloMosaic.Lib.ReduceAll
import Idealize.ShloMosaic.Lib.ValueIdx
import Idealize.ShloMosaic.PureOps.Ideal

noncomputable section

namespace Cert.Station

open Idealize.ShloMosaic

/-- The shape with no axes has exactly one index. -/
instance : Subsingleton Cert.Pre_finite_inputs.S_.Idx := ⟨fun _ _ => funext fun d => d.elim0⟩

/-- An extended real whose absolute value, spelt max(x, -x), compares strictly below the value of the bit pattern
    of plus infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the third argument array is a real number. -/
theorem finite_of_pre [Cert.Pre_finite_inputs.Facts]
    (a0 : FVec Ideal Cert.Pre_finite_inputs.S64x64x32 .f32) (a1 : FVec Ideal Cert.Pre_finite_inputs.S32x32 .f32)
    (a2 : FVec Ideal Cert.Pre_finite_inputs.S64x64x8 .f32)
    (h : Cert.Pre_finite_inputs.fn (F := Ideal) a0 a1 a2 = fun _ => 1#1) :
    ∀ q : Cert.Pre_finite_inputs.S64x64x8.Idx, ∃ r : ℝ, a2 q = (r : EReal) := by
  intro q
  have e := congrFun h ValueIdx.ix0
  dsimp only [Cert.Pre_finite_inputs.fn] at e
  change IntOp.andi _ _ = 1#1 at e
  have e2 := (IntOp.andi_eq_one.1 e).2
  have e3 := Host.reduce_andi_all _ _ _ _ _ e2 q
  exact real_of_abs_lt_inf (a2 q) e3

end Cert.Station

end
-- ==== Proof.RefRun.lean ====
/-
  The reference program as a straight line of its 97 host operations, and its run.

  The program's own 58 operations, with the 17 of the floor-division function and the 22 of the remainder function it calls,
  written out at their call sites over the buffers of those calls, in program order. Every weakly fair execution
  of the program ends with each buffer at the fold of these operations over the launch contents. The list is also
  cut into six consecutive pieces — the first station-coordinate chain and its closing concatenation, the
  similarity, the second coordinate chain (through the two called functions) and its closing concatenation, and the final
  gather with the two products — so that each piece can be read on its own.
-/
import proofs.«123584_g48833778155979_cont_8to1_c_18_28_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first coordinate chain up to the wrapped columns: the table of station coordinates, its two columns, and the
    wrap of negative coordinates on each. -/
abbrev opsA1 : List (HloOp τ sig (Elt F)) :=
  [ StableHlo.nullary main_c (fun i => lit0 (S32x2.rowMajor i)),
    StableHlo.unary main_c main_v0 ((extractStridedSlice S32x1 ![0, 0] · slices_S32x2_S32x1_0_0) : (⟨S32x2, .i32⟩ : BufTy).Contents (Elt F) → (⟨S32x1, .i32⟩ : BufTy).Contents (Elt F)),
    StableHlo.reshape main_v0 main_v1 rfl shapeCasts_S32x1_S32,
    StableHlo.unary main_c main_v2 ((extractStridedSlice S32x1 ![0, 1] · slices_S32x2_S32x1_0_1) : (⟨S32x2, .i32⟩ : BufTy).Contents (Elt F) → (⟨S32x1, .i32⟩ : BufTy).Contents (Elt F)),
    StableHlo.reshape main_v2 main_v3 rfl shapeCasts_S32x1_S32,
    StableHlo.nullary main_c_0 (constantI S_ 32 0#32),
    StableHlo.unary main_c_0 main_v4 (broadcastInDim S32 ![] bcast_S_S32 : (⟨S_, .i32⟩ : BufTy).Contents (Elt F) → (⟨S32, .i32⟩ : BufTy).Contents (Elt F)),
    StableHlo.binary main_v1 main_v4 main_v5 (cmpi .slt : (⟨S32, .i32⟩ : BufTy).Contents (Elt F) → (⟨S32, .i32⟩ : BufTy).Contents (Elt F) → (⟨S32, .i1⟩ : BufTy).Contents (Elt F)),
    StableHlo.nullary main_c_1 (constantI S_ 32 64#32),
    StableHlo.unary main_c_1 main_v6 (broadcastInDim S32 ![] bcast_S_S32 : (⟨S_, .i32⟩ : BufTy).Contents (Elt F) → (⟨S32, .i32⟩ : BufTy).Contents (Elt F)),
    StableHlo.binary main_v1 main_v6 main_v7 (addi : (⟨S32, .i32⟩ : BufTy).Contents (Elt F) → (⟨S32, .i32⟩ : BufTy).Contents (Elt F) → (⟨S32, .i32⟩ : BufTy).Contents (Elt F)),
    StableHlo.ternary main_v5 main_v7 main_v1 main_v8 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_2 (constantI S_ 32 0#32),
    StableHlo.unary main_c_2 main_v9 (broadcastInDim S32 ![] bcast_S_S32 : (⟨S_, .i32⟩ : BufTy).Contents (Elt F) → (⟨S32, .i32⟩ : BufTy).Contents (Elt F)),
    StableHlo.binary main_v3 main_v9 main_v10 (cmpi .slt : (⟨S32, .i32⟩ : BufTy).Contents (Elt F) → (⟨S32, .i32⟩ : BufTy).Contents (Elt F) → (⟨S32, .i1⟩ : BufTy).Contents (Elt F)),
    StableHlo.nullary main_c_3 (constantI S_ 32 64#32),
    StableHlo.unary main_c_3 main_v11 (broadcastInDim S32 ![] bcast_S_S32 : (⟨S_, .i32⟩ : BufTy).Contents (Elt F) → (⟨S32, .i32⟩ : BufTy).Contents (Elt F)),
    StableHlo.binary main_v3 main_v11 main_v12 (addi : (⟨S32, .i32⟩ : BufTy).Contents (Elt F) → (⟨S32, .i32⟩ : BufTy).Contents (Elt F) → (⟨S32, .i32⟩ : BufTy).Contents (Elt F)),
    StableHlo.ternary main_v10 main_v12 main_v3 main_v13 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ]

/-- The two wrapped columns put side by side again. -/
abbrev opsA2 : List (HloOp τ sig (Elt F)) :=
  [ StableHlo.unary main_v8 main_v14 (broadcastInDim S32x1 ![0] bcast_S32_S32x1_0 : (⟨S32, .i32⟩ : BufTy).Contents (Elt F) → (⟨S32x1, .i32⟩ : BufTy).Contents (Elt F)),
    StableHlo.unary main_v13 main_v15 (broadcastInDim S32x1 ![0] bcast_S32_S32x1_0 : (⟨S32, .i32⟩ : BufTy).Contents (Elt F) → (⟨S32x1, .i32⟩ : BufTy).Contents (Elt F)),
    StableHlo.binary main_v14 main_v15 main_v16 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)) ]

/-- The similarity: the stations' context rows gathered, both operands broadcast to one four-axis block,
    exp(-|difference|), and the sum over the channel axis. -/
abbrev opsB : List (HloOp τ sig (Elt F)) :=
  [ StableHlo.binary main_arg2 main_v16 main_v17 ((fun x i => Host.gather gather_S64x64x8_S32x2_S32x8_1_01_n_n_01_1_118 x i) : (⟨S64x64x8, .f32⟩ : BufTy).Contents (Elt F) → (⟨S32x2, .i32⟩ : BufTy).Contents (Elt F) → (⟨S32x8, .f32⟩ : BufTy).Contents (Elt F)),
    StableHlo.unary main_v17 main_v18 (broadcastInDim S1x1x32x8 ![2, 3] bcast_S32x8_S1x1x32x8_2_3 : (⟨S32x8, .f32⟩ : BufTy).Contents (Elt F) → (⟨S1x1x32x8, .f32⟩ : BufTy).Contents (Elt F)),
    StableHlo.unary main_arg2 main_v19 (broadcastInDim S64x64x1x8 ![0, 1, 3] bcast_S64x64x8_S64x64x1x8_0_1_3 : (⟨S64x64x8, .f32⟩ : BufTy).Contents (Elt F) → (⟨S64x64x1x8, .f32⟩ : BufTy).Contents (Elt F)),
    StableHlo.unary main_v18 main_v20 (broadcastInDim S64x64x32x8 ![0, 1, 2, 3] bcast_S1x1x32x8_S64x64x32x8_0_1_2_3 : (⟨S1x1x32x8, .f32⟩ : BufTy).Contents (Elt F) → (⟨S64x64x32x8, .f32⟩ : BufTy).Contents (Elt F)),
    StableHlo.unary main_v19 main_v21 (broadcastInDim S64x64x32x8 ![0, 1, 2, 3] bcast_S64x64x1x8_S64x64x32x8_0_1_2_3 : (⟨S64x64x1x8, .f32⟩ : BufTy).Contents (Elt F) → (⟨S64x64x32x8, .f32⟩ : BufTy).Contents (Elt F)),
    StableHlo.binary main_v20 main_v21 main_v22 (subf : (⟨S64x64x32x8, .f32⟩ : BufTy).Contents (Elt F) → (⟨S64x64x32x8, .f32⟩ : BufTy).Contents (Elt F) → (⟨S64x64x32x8, .f32⟩ : BufTy).Contents (Elt F)),
    StableHlo.unary main_v22 main_v23 (Host.absf : (⟨S64x64x32x8, .f32⟩ : BufTy).Contents (Elt F) → (⟨S64x64x32x8, .f32⟩ : BufTy).Contents (Elt F)),
    StableHlo.unary main_v23 main_v24 (Host.negf : (⟨S64x64x32x8, .f32⟩ : BufTy).Contents (Elt F) → (⟨S64x64x32x8, .f32⟩ : BufTy).Contents (Elt F)),
    StableHlo.unary main_v24 main_v25 (Host.exp : (⟨S64x64x32x8, .f32⟩ : BufTy).Contents (Elt F) → (⟨S64x64x32x8, .f32⟩ : BufTy).Contents (Elt F)),
    StableHlo.nullary main_cst (constant S_ .f32 0x00000000#32),
    StableHlo.binary main_v25 main_cst main_v26 ((fun x v => Host.reduceAdd x v reducesTo_S64x64x32x8_S64x64x32_d3 h_S_) : (⟨S64x64x32x8, .f32⟩ : BufTy).Contents (Elt F) → (⟨S_, .f32⟩ : BufTy).Contents (Elt F) → (⟨S64x64x32, .f32⟩ : BufTy).Contents (Elt F)) ]

/-- The second coordinate chain up to the wrapped columns: the flat cell number 64 * row + column, split again by
    floor division and remainder by 64 (each called function's operations over its call's buffers), and the wrap on each. -/
abbrev opsC1 : List (HloOp τ sig (Elt F)) :=
  [ StableHlo.nullary main_c_4 (constantI S_ 32 64#32),
    StableHlo.unary main_c_4 main_v27 (broadcastInDim S32 ![] bcast_S_S32 : (⟨S_, .i32⟩ : BufTy).Contents (Elt F) → (⟨S32, .i32⟩ : BufTy).Contents (Elt F)),
    StableHlo.binary main_v1 main_v27 main_v28 (muli : (⟨S32, .i32⟩ : BufTy).Contents (Elt F) → (⟨S32, .i32⟩ : BufTy).Contents (Elt F) → (⟨S32, .i32⟩ : BufTy).Contents (Elt F)),
    StableHlo.binary main_v28 main_v3 main_v29 (addi : (⟨S32, .i32⟩ : BufTy).Contents (Elt F) → (⟨S32, .i32⟩ : BufTy).Contents (Elt F) → (⟨S32, .i32⟩ : BufTy).Contents (Elt F)),
    StableHlo.nullary main_c_5 (constantI S_ 32 64#32),
    StableHlo.TRef.unary (.of main_c_5) main_call0.v0 id,
    StableHlo.TRef.unary main_call0.v0 main_call0.v1 (broadcastInDim S32 ![] bcast_S_S32),
    StableHlo.TRef.binary (.of main_v29) main_call0.v1 main_call0.v2 Host.divsi,
    StableHlo.TRef.unary (.of main_v29) main_call0.v3 signi,
    StableHlo.TRef.unary main_call0.v0 main_call0.v4 signi,
    StableHlo.TRef.unary main_call0.v4 main_call0.v5 (broadcastInDim S32 ![] bcast_S_S32),
    StableHlo.TRef.binary main_call0.v3 main_call0.v5 main_call0.v6 (cmpi .ne),
    StableHlo.TRef.unary main_call0.v0 main_call0.v7 (broadcastInDim S32 ![] bcast_S_S32),
    StableHlo.TRef.binary (.of main_v29) main_call0.v7 main_call0.v8 Host.remsi,
    StableHlo.TRef.nullary main_call0.c (constantI S_ 32 0#32),
    StableHlo.TRef.unary main_call0.c main_call0.v9 (broadcastInDim S32 ![] bcast_S_S32),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S32 ![] bcast_S_S32),
    StableHlo.TRef.binary main_call0.v2 main_call0.v12 main_call0.v13 subi,
    StableHlo.TRef.ternary main_call0.v11 main_call0.v13 main_call0.v2 main_call0.call0.v0 select,
    StableHlo.nullary main_c_6 (constantI S_ 32 64#32),
    StableHlo.TRef.unary (.of main_c_6) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S32 ![] bcast_S_S32),
    StableHlo.TRef.binary (.of main_v29) main_call1.v3 main_call1.v4 Host.remsi,
    StableHlo.TRef.nullary main_call1.c_1 (constantI S_ 32 0#32),
    StableHlo.TRef.unary main_call1.c_1 main_call1.v5 (broadcastInDim S32 ![] bcast_S_S32),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S32 ![] bcast_S_S32),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S32 ![] bcast_S_S32),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S32 ![] bcast_S_S32),
    StableHlo.TRef.binary main_call1.v4 main_call1.v13 main_call1.v14 addi,
    StableHlo.TRef.ternary main_call1.v12 main_call1.v14 main_call1.v4 main_call1.v15 select,
    StableHlo.nullary main_c_7 (constantI S_ 32 0#32),
    StableHlo.unary main_c_7 main_v32 (broadcastInDim S32 ![] bcast_S_S32 : (⟨S_, .i32⟩ : BufTy).Contents (Elt F) → (⟨S32, .i32⟩ : BufTy).Contents (Elt F)),
    StableHlo.binary main_v30 main_v32 main_v33 (cmpi .slt : (⟨S32, .i32⟩ : BufTy).Contents (Elt F) → (⟨S32, .i32⟩ : BufTy).Contents (Elt F) → (⟨S32, .i1⟩ : BufTy).Contents (Elt F)),
    StableHlo.nullary main_c_8 (constantI S_ 32 64#32),
    StableHlo.unary main_c_8 main_v34 (broadcastInDim S32 ![] bcast_S_S32 : (⟨S_, .i32⟩ : BufTy).Contents (Elt F) → (⟨S32, .i32⟩ : BufTy).Contents (Elt F)),
    StableHlo.binary main_v30 main_v34 main_v35 (addi : (⟨S32, .i32⟩ : BufTy).Contents (Elt F) → (⟨S32, .i32⟩ : BufTy).Contents (Elt F) → (⟨S32, .i32⟩ : BufTy).Contents (Elt F)),
    StableHlo.ternary main_v33 main_v35 main_v30 main_v36 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_9 (constantI S_ 32 0#32),
    StableHlo.unary main_c_9 main_v37 (broadcastInDim S32 ![] bcast_S_S32 : (⟨S_, .i32⟩ : BufTy).Contents (Elt F) → (⟨S32, .i32⟩ : BufTy).Contents (Elt F)),
    StableHlo.binary main_v31 main_v37 main_v38 (cmpi .slt : (⟨S32, .i32⟩ : BufTy).Contents (Elt F) → (⟨S32, .i32⟩ : BufTy).Contents (Elt F) → (⟨S32, .i1⟩ : BufTy).Contents (Elt F)),
    StableHlo.nullary main_c_10 (constantI S_ 32 64#32),
    StableHlo.unary main_c_10 main_v39 (broadcastInDim S32 ![] bcast_S_S32 : (⟨S_, .i32⟩ : BufTy).Contents (Elt F) → (⟨S32, .i32⟩ : BufTy).Contents (Elt F)),
    StableHlo.binary main_v31 main_v39 main_v40 (addi : (⟨S32, .i32⟩ : BufTy).Contents (Elt F) → (⟨S32, .i32⟩ : BufTy).Contents (Elt F) → (⟨S32, .i32⟩ : BufTy).Contents (Elt F)),
    StableHlo.ternary main_v38 main_v40 main_v31 main_v41 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ]

/-- Those two columns put side by side. -/
abbrev opsC2 : List (HloOp τ sig (Elt F)) :=
  [ StableHlo.unary main_v36 main_v42 (broadcastInDim S32x1 ![0] bcast_S32_S32x1_0 : (⟨S32, .i32⟩ : BufTy).Contents (Elt F) → (⟨S32x1, .i32⟩ : BufTy).Contents (Elt F)),
    StableHlo.unary main_v41 main_v43 (broadcastInDim S32x1 ![0] bcast_S32_S32x1_0 : (⟨S32, .i32⟩ : BufTy).Contents (Elt F) → (⟨S32x1, .i32⟩ : BufTy).Contents (Elt F)),
    StableHlo.binary main_v42 main_v43 main_v44 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)) ]

/-- The tail: the stations' feature rows gathered, their product with the weights, and the similarity's product
    with that. -/
abbrev opsD : List (HloOp τ sig (Elt F)) :=
  [ StableHlo.binary main_arg0 main_v44 main_v45 ((fun x i => Host.gather gather_S64x64x32_S32x2_S32x32_1_01_n_n_01_1_1132 x i) : (⟨S64x64x32, .f32⟩ : BufTy).Contents (Elt F) → (⟨S32x2, .i32⟩ : BufTy).Contents (Elt F) → (⟨S32x32, .f32⟩ : BufTy).Contents (Elt F)),
    StableHlo.binary main_v45 main_arg1 main_v46 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v26 main_v46 main_v47 ((fun l r => Host.dotGeneral dot_S64x64x32_S32x32_S64x64x32_2_0_01_1_n_n none l r) : (⟨S64x64x32, .f32⟩ : BufTy).Contents (Elt F) → (⟨S32x32, .f32⟩ : BufTy).Contents (Elt F) → (⟨S64x64x32, .f32⟩ : BufTy).Contents (Elt F)) ]

/-- All 97 operations, in order. -/
abbrev ops : List (HloOp τ sig (Elt F)) :=
  [ StableHlo.nullary main_c (fun i => lit0 (S32x2.rowMajor i)),
    StableHlo.unary main_c main_v0 ((extractStridedSlice S32x1 ![0, 0] · slices_S32x2_S32x1_0_0) : (⟨S32x2, .i32⟩ : BufTy).Contents (Elt F) → (⟨S32x1, .i32⟩ : BufTy).Contents (Elt F)),
    StableHlo.reshape main_v0 main_v1 rfl shapeCasts_S32x1_S32,
    StableHlo.unary main_c main_v2 ((extractStridedSlice S32x1 ![0, 1] · slices_S32x2_S32x1_0_1) : (⟨S32x2, .i32⟩ : BufTy).Contents (Elt F) → (⟨S32x1, .i32⟩ : BufTy).Contents (Elt F)),
    StableHlo.reshape main_v2 main_v3 rfl shapeCasts_S32x1_S32,
    StableHlo.nullary main_c_0 (constantI S_ 32 0#32),
    StableHlo.unary main_c_0 main_v4 (broadcastInDim S32 ![] bcast_S_S32 : (⟨S_, .i32⟩ : BufTy).Contents (Elt F) → (⟨S32, .i32⟩ : BufTy).Contents (Elt F)),
    StableHlo.binary main_v1 main_v4 main_v5 (cmpi .slt : (⟨S32, .i32⟩ : BufTy).Contents (Elt F) → (⟨S32, .i32⟩ : BufTy).Contents (Elt F) → (⟨S32, .i1⟩ : BufTy).Contents (Elt F)),
    StableHlo.nullary main_c_1 (constantI S_ 32 64#32),
    StableHlo.unary main_c_1 main_v6 (broadcastInDim S32 ![] bcast_S_S32 : (⟨S_, .i32⟩ : BufTy).Contents (Elt F) → (⟨S32, .i32⟩ : BufTy).Contents (Elt F)),
    StableHlo.binary main_v1 main_v6 main_v7 (addi : (⟨S32, .i32⟩ : BufTy).Contents (Elt F) → (⟨S32, .i32⟩ : BufTy).Contents (Elt F) → (⟨S32, .i32⟩ : BufTy).Contents (Elt F)),
    StableHlo.ternary main_v5 main_v7 main_v1 main_v8 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_2 (constantI S_ 32 0#32),
    StableHlo.unary main_c_2 main_v9 (broadcastInDim S32 ![] bcast_S_S32 : (⟨S_, .i32⟩ : BufTy).Contents (Elt F) → (⟨S32, .i32⟩ : BufTy).Contents (Elt F)),
    StableHlo.binary main_v3 main_v9 main_v10 (cmpi .slt : (⟨S32, .i32⟩ : BufTy).Contents (Elt F) → (⟨S32, .i32⟩ : BufTy).Contents (Elt F) → (⟨S32, .i1⟩ : BufTy).Contents (Elt F)),
    StableHlo.nullary main_c_3 (constantI S_ 32 64#32),
    StableHlo.unary main_c_3 main_v11 (broadcastInDim S32 ![] bcast_S_S32 : (⟨S_, .i32⟩ : BufTy).Contents (Elt F) → (⟨S32, .i32⟩ : BufTy).Contents (Elt F)),
    StableHlo.binary main_v3 main_v11 main_v12 (addi : (⟨S32, .i32⟩ : BufTy).Contents (Elt F) → (⟨S32, .i32⟩ : BufTy).Contents (Elt F) → (⟨S32, .i32⟩ : BufTy).Contents (Elt F)),
    StableHlo.ternary main_v10 main_v12 main_v3 main_v13 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v8 main_v14 (broadcastInDim S32x1 ![0] bcast_S32_S32x1_0 : (⟨S32, .i32⟩ : BufTy).Contents (Elt F) → (⟨S32x1, .i32⟩ : BufTy).Contents (Elt F)),
    StableHlo.unary main_v13 main_v15 (broadcastInDim S32x1 ![0] bcast_S32_S32x1_0 : (⟨S32, .i32⟩ : BufTy).Contents (Elt F) → (⟨S32x1, .i32⟩ : BufTy).Contents (Elt F)),
    StableHlo.binary main_v14 main_v15 main_v16 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.binary main_arg2 main_v16 main_v17 ((fun x i => Host.gather gather_S64x64x8_S32x2_S32x8_1_01_n_n_01_1_118 x i) : (⟨S64x64x8, .f32⟩ : BufTy).Contents (Elt F) → (⟨S32x2, .i32⟩ : BufTy).Contents (Elt F) → (⟨S32x8, .f32⟩ : BufTy).Contents (Elt F)),
    StableHlo.unary main_v17 main_v18 (broadcastInDim S1x1x32x8 ![2, 3] bcast_S32x8_S1x1x32x8_2_3 : (⟨S32x8, .f32⟩ : BufTy).Contents (Elt F) → (⟨S1x1x32x8, .f32⟩ : BufTy).Contents (Elt F)),
    StableHlo.unary main_arg2 main_v19 (broadcastInDim S64x64x1x8 ![0, 1, 3] bcast_S64x64x8_S64x64x1x8_0_1_3 : (⟨S64x64x8, .f32⟩ : BufTy).Contents (Elt F) → (⟨S64x64x1x8, .f32⟩ : BufTy).Contents (Elt F)),
    StableHlo.unary main_v18 main_v20 (broadcastInDim S64x64x32x8 ![0, 1, 2, 3] bcast_S1x1x32x8_S64x64x32x8_0_1_2_3 : (⟨S1x1x32x8, .f32⟩ : BufTy).Contents (Elt F) → (⟨S64x64x32x8, .f32⟩ : BufTy).Contents (Elt F)),
    StableHlo.unary main_v19 main_v21 (broadcastInDim S64x64x32x8 ![0, 1, 2, 3] bcast_S64x64x1x8_S64x64x32x8_0_1_2_3 : (⟨S64x64x1x8, .f32⟩ : BufTy).Contents (Elt F) → (⟨S64x64x32x8, .f32⟩ : BufTy).Contents (Elt F)),
    StableHlo.binary main_v20 main_v21 main_v22 (subf : (⟨S64x64x32x8, .f32⟩ : BufTy).Contents (Elt F) → (⟨S64x64x32x8, .f32⟩ : BufTy).Contents (Elt F) → (⟨S64x64x32x8, .f32⟩ : BufTy).Contents (Elt F)),
    StableHlo.unary main_v22 main_v23 (Host.absf : (⟨S64x64x32x8, .f32⟩ : BufTy).Contents (Elt F) → (⟨S64x64x32x8, .f32⟩ : BufTy).Contents (Elt F)),
    StableHlo.unary main_v23 main_v24 (Host.negf : (⟨S64x64x32x8, .f32⟩ : BufTy).Contents (Elt F) → (⟨S64x64x32x8, .f32⟩ : BufTy).Contents (Elt F)),
    StableHlo.unary main_v24 main_v25 (Host.exp : (⟨S64x64x32x8, .f32⟩ : BufTy).Contents (Elt F) → (⟨S64x64x32x8, .f32⟩ : BufTy).Contents (Elt F)),
    StableHlo.nullary main_cst (constant S_ .f32 0x00000000#32),
    StableHlo.binary main_v25 main_cst main_v26 ((fun x v => Host.reduceAdd x v reducesTo_S64x64x32x8_S64x64x32_d3 h_S_) : (⟨S64x64x32x8, .f32⟩ : BufTy).Contents (Elt F) → (⟨S_, .f32⟩ : BufTy).Contents (Elt F) → (⟨S64x64x32, .f32⟩ : BufTy).Contents (Elt F)),
    StableHlo.nullary main_c_4 (constantI S_ 32 64#32),
    StableHlo.unary main_c_4 main_v27 (broadcastInDim S32 ![] bcast_S_S32 : (⟨S_, .i32⟩ : BufTy).Contents (Elt F) → (⟨S32, .i32⟩ : BufTy).Contents (Elt F)),
    StableHlo.binary main_v1 main_v27 main_v28 (muli : (⟨S32, .i32⟩ : BufTy).Contents (Elt F) → (⟨S32, .i32⟩ : BufTy).Contents (Elt F) → (⟨S32, .i32⟩ : BufTy).Contents (Elt F)),
    StableHlo.binary main_v28 main_v3 main_v29 (addi : (⟨S32, .i32⟩ : BufTy).Contents (Elt F) → (⟨S32, .i32⟩ : BufTy).Contents (Elt F) → (⟨S32, .i32⟩ : BufTy).Contents (Elt F)),
    StableHlo.nullary main_c_5 (constantI S_ 32 64#32),
    StableHlo.TRef.unary (.of main_c_5) main_call0.v0 id,
    StableHlo.TRef.unary main_call0.v0 main_call0.v1 (broadcastInDim S32 ![] bcast_S_S32),
    StableHlo.TRef.binary (.of main_v29) main_call0.v1 main_call0.v2 Host.divsi,
    StableHlo.TRef.unary (.of main_v29) main_call0.v3 signi,
    StableHlo.TRef.unary main_call0.v0 main_call0.v4 signi,
    StableHlo.TRef.unary main_call0.v4 main_call0.v5 (broadcastInDim S32 ![] bcast_S_S32),
    StableHlo.TRef.binary main_call0.v3 main_call0.v5 main_call0.v6 (cmpi .ne),
    StableHlo.TRef.unary main_call0.v0 main_call0.v7 (broadcastInDim S32 ![] bcast_S_S32),
    StableHlo.TRef.binary (.of main_v29) main_call0.v7 main_call0.v8 Host.remsi,
    StableHlo.TRef.nullary main_call0.c (constantI S_ 32 0#32),
    StableHlo.TRef.unary main_call0.c main_call0.v9 (broadcastInDim S32 ![] bcast_S_S32),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S32 ![] bcast_S_S32),
    StableHlo.TRef.binary main_call0.v2 main_call0.v12 main_call0.v13 subi,
    StableHlo.TRef.ternary main_call0.v11 main_call0.v13 main_call0.v2 main_call0.call0.v0 select,
    StableHlo.nullary main_c_6 (constantI S_ 32 64#32),
    StableHlo.TRef.unary (.of main_c_6) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S32 ![] bcast_S_S32),
    StableHlo.TRef.binary (.of main_v29) main_call1.v3 main_call1.v4 Host.remsi,
    StableHlo.TRef.nullary main_call1.c_1 (constantI S_ 32 0#32),
    StableHlo.TRef.unary main_call1.c_1 main_call1.v5 (broadcastInDim S32 ![] bcast_S_S32),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S32 ![] bcast_S_S32),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S32 ![] bcast_S_S32),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S32 ![] bcast_S_S32),
    StableHlo.TRef.binary main_call1.v4 main_call1.v13 main_call1.v14 addi,
    StableHlo.TRef.ternary main_call1.v12 main_call1.v14 main_call1.v4 main_call1.v15 select,
    StableHlo.nullary main_c_7 (constantI S_ 32 0#32),
    StableHlo.unary main_c_7 main_v32 (broadcastInDim S32 ![] bcast_S_S32 : (⟨S_, .i32⟩ : BufTy).Contents (Elt F) → (⟨S32, .i32⟩ : BufTy).Contents (Elt F)),
    StableHlo.binary main_v30 main_v32 main_v33 (cmpi .slt : (⟨S32, .i32⟩ : BufTy).Contents (Elt F) → (⟨S32, .i32⟩ : BufTy).Contents (Elt F) → (⟨S32, .i1⟩ : BufTy).Contents (Elt F)),
    StableHlo.nullary main_c_8 (constantI S_ 32 64#32),
    StableHlo.unary main_c_8 main_v34 (broadcastInDim S32 ![] bcast_S_S32 : (⟨S_, .i32⟩ : BufTy).Contents (Elt F) → (⟨S32, .i32⟩ : BufTy).Contents (Elt F)),
    StableHlo.binary main_v30 main_v34 main_v35 (addi : (⟨S32, .i32⟩ : BufTy).Contents (Elt F) → (⟨S32, .i32⟩ : BufTy).Contents (Elt F) → (⟨S32, .i32⟩ : BufTy).Contents (Elt F)),
    StableHlo.ternary main_v33 main_v35 main_v30 main_v36 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_9 (constantI S_ 32 0#32),
    StableHlo.unary main_c_9 main_v37 (broadcastInDim S32 ![] bcast_S_S32 : (⟨S_, .i32⟩ : BufTy).Contents (Elt F) → (⟨S32, .i32⟩ : BufTy).Contents (Elt F)),
    StableHlo.binary main_v31 main_v37 main_v38 (cmpi .slt : (⟨S32, .i32⟩ : BufTy).Contents (Elt F) → (⟨S32, .i32⟩ : BufTy).Contents (Elt F) → (⟨S32, .i1⟩ : BufTy).Contents (Elt F)),
    StableHlo.nullary main_c_10 (constantI S_ 32 64#32),
    StableHlo.unary main_c_10 main_v39 (broadcastInDim S32 ![] bcast_S_S32 : (⟨S_, .i32⟩ : BufTy).Contents (Elt F) → (⟨S32, .i32⟩ : BufTy).Contents (Elt F)),
    StableHlo.binary main_v31 main_v39 main_v40 (addi : (⟨S32, .i32⟩ : BufTy).Contents (Elt F) → (⟨S32, .i32⟩ : BufTy).Contents (Elt F) → (⟨S32, .i32⟩ : BufTy).Contents (Elt F)),
    StableHlo.ternary main_v38 main_v40 main_v31 main_v41 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v36 main_v42 (broadcastInDim S32x1 ![0] bcast_S32_S32x1_0 : (⟨S32, .i32⟩ : BufTy).Contents (Elt F) → (⟨S32x1, .i32⟩ : BufTy).Contents (Elt F)),
    StableHlo.unary main_v41 main_v43 (broadcastInDim S32x1 ![0] bcast_S32_S32x1_0 : (⟨S32, .i32⟩ : BufTy).Contents (Elt F) → (⟨S32x1, .i32⟩ : BufTy).Contents (Elt F)),
    StableHlo.binary main_v42 main_v43 main_v44 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.binary main_arg0 main_v44 main_v45 ((fun x i => Host.gather gather_S64x64x32_S32x2_S32x32_1_01_n_n_01_1_1132 x i) : (⟨S64x64x32, .f32⟩ : BufTy).Contents (Elt F) → (⟨S32x2, .i32⟩ : BufTy).Contents (Elt F) → (⟨S32x32, .f32⟩ : BufTy).Contents (Elt F)),
    StableHlo.binary main_v45 main_arg1 main_v46 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    StableHlo.binary main_v26 main_v46 main_v47 ((fun l r => Host.dotGeneral dot_S64x64x32_S32x32_S64x64x32_2_0_01_1_n_n none l r) : (⟨S64x64x32, .f32⟩ : BufTy).Contents (Elt F) → (⟨S32x32, .f32⟩ : BufTy).Contents (Elt F) → (⟨S64x64x32, .f32⟩ : BufTy).Contents (Elt F)) ]

theorem ops_split : (ops : List (HloOp τ sig (Elt F))) = opsA1 ++ (opsA2 ++ (opsB ++ (opsC1 ++ (opsC2 ++ opsD)))) := rfl

-- ninety-seven binds re-associated: the rewrite under the chain recurses once per statement
set_option maxRecDepth 4096 in
set_option maxHeartbeats 1600000 in
/-- The program is that straight line: the two windows and the called functions' bodies unfolded at their calls, both sides
    are one chain of steps once sequencing is re-associated. -/
theorem main_eq (c : Dev nD) : main (F := F) c = seq ops := by
  simp only [main, main_part0, main_part1, fn_floor_divide.body, fn_remainder.body, fn_where.body, fn_where_0.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., unary_bufs_sub ..,
    unary_bufs_sub .., unary_bufs_sub .., unary_bufs_sub .., binary_bufs_sub .., unary_bufs_sub .., unary_bufs_sub ..,
    unary_bufs_sub .., nullary_bufs_sub .., binary_bufs_sub .., nullary_bufs_sub .., unary_bufs_sub .., binary_bufs_sub ..,
    binary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., binary_bufs_sub ..,
    binary_bufs_sub ..⟩

/-- From any memory with zero counters every weakly fair execution of the program terminates, and every buffer
    ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over the whole list is the fold over the six pieces in turn. -/
theorem after_ops (V : Valuation τ sig (Elt F)) :
    after ops V = after opsD (after opsC2 (after opsC1 (after opsB (after opsA2 (after opsA1 V))))) := by
  rw [ops_split, StableHlo.after_append, StableHlo.after_append, StableHlo.after_append, StableHlo.after_append,
    StableHlo.after_append]

end Cert.ReferenceIdeal.RefRun

end
-- ==== Proof.RefGather.lean ====
/-
  A row gather read at an entry.

  The operand is a 64 x 64 grid of rows of length C; the start indices are a 32 x 2 table of (row, column) pairs.
  Both grid axes are collapsed (slice size 1) and named by the start index map, the row axis is the one offset axis:
  result entry (k, c) is the operand at (row_k, column_k, c), each coordinate read as a signed integer and clamped
  into 0 .. 63. One statement, for every row length C.
-/
import Idealize.ShloMosaic.Lib.ValueIdx

noncomputable section

namespace Cert.RefGather

open Idealize.ShloMosaic Idealize.ShloMosaic.ValueIdx

variable {α : Type}

/-- The dimension numbers of the row gather for rows of length `C`. -/
abbrev rowDims (C : Nat)
    (wf : GatherDims.WF ⟨3, ![64, 64, C]⟩ ⟨2, ![32, 2]⟩ ⟨2, ![32, C]⟩ [1] [0, 1] [] [0, 1] [] 1 ![1, 1, C]) :
    GatherDims ⟨3, ![64, 64, C]⟩ ⟨2, ![32, 2]⟩ ⟨2, ![32, C]⟩ where
  offsetDims := [1]
  collapsedSliceDims := [0, 1]
  operandBatchingDims := []
  startIndicesBatchingDims := []
  startIndexMap := [0, 1]
  indexVectorDim := 1
  sliceSizes := ![1, 1, C]
  wf := wf

/-- Entry (k, c) of the row gather: the operand at the k-th (row, column) pair, clamped, and c. -/
theorem gather_row_apply {C w : Nat}
    (wf : GatherDims.WF ⟨3, ![64, 64, C]⟩ ⟨2, ![32, 2]⟩ ⟨2, ![32, C]⟩ [1] [0, 1] [] [0, 1] [] 1 ![1, 1, C])
    (x : (⟨3, ![64, 64, C]⟩ : Shape).Idx → α) (idx : IVec ⟨2, ![32, 2]⟩ w) (k : Fin 32) (c : Fin C) :
    Host.gather (rowDims C wf) x idx (ix2 k c)
      = x (ix3 (⟨min (idx (ix2 k (0 : Fin 2))).toInt.toNat 63, by omega⟩ : Fin 64)
               (⟨min (idx (ix2 k (1 : Fin 2))).toInt.toNat 63, by omega⟩ : Fin 64) c) := by
  unfold Host.gather
  congr 1
  funext a
  refine Fin.ext ?_
  show (rowDims C wf).start (ix2 k c) idx a + (rowDims C wf).batchCoord (ix2 k c) a + (rowDims C wf).offCoord (ix2 k c) a = _
  rw [GatherDims.batchCoord_eq_zero _ _ _ List.not_mem_nil]
  match a with
  | ⟨0, _⟩ =>
    rw [GatherDims.offCoord_eq_zero _ _ _ (fun h => ((GatherDims.mem_sKept _ _).mp h).1 (show _ ∈ ([0, 1] : List (Fin 3)) from (by decide : (0 : Fin 3) ∈ ([0, 1] : List (Fin 3)))))]
    simp only [Nat.add_zero]
    unfold GatherDims.start
    rw [dif_pos (show (⟨0, by decide⟩ : Fin 3) ∈ ([0, 1] : List (Fin 3)) from by decide)]
    have hsi : (rowDims C wf).siIdx (ix2 k c) ⟨List.idxOf (⟨0, by decide⟩ : Fin 3) (rowDims C wf).startIndexMap,
        List.idxOf_lt_length_iff.2 (show _ ∈ ([0, 1] : List (Fin 3)) from by decide)⟩ = ix2 k (0 : Fin 2) := by
      funext b; refine Fin.ext ?_
      match b with
      | ⟨0, _⟩ => rfl
      | ⟨1, _⟩ => rfl
    rw [hsi]
    rfl
  | ⟨1, _⟩ =>
    rw [GatherDims.offCoord_eq_zero _ _ _ (fun h => ((GatherDims.mem_sKept _ _).mp h).1 (show _ ∈ ([0, 1] : List (Fin 3)) from (by decide : (1 : Fin 3) ∈ ([0, 1] : List (Fin 3)))))]
    simp only [Nat.add_zero]
    unfold GatherDims.start
    rw [dif_pos (show (⟨1, by decide⟩ : Fin 3) ∈ ([0, 1] : List (Fin 3)) from by decide)]
    have hsi : (rowDims C wf).siIdx (ix2 k c) ⟨List.idxOf (⟨1, by decide⟩ : Fin 3) (rowDims C wf).startIndexMap,
        List.idxOf_lt_length_iff.2 (show _ ∈ ([0, 1] : List (Fin 3)) from by decide)⟩ = ix2 k (1 : Fin 2) := by
      funext b; refine Fin.ext ?_
      match b with
      | ⟨0, _⟩ => rfl
      | ⟨1, _⟩ => rfl
    rw [hsi]
    rfl
  | ⟨2, _⟩ =>
    have hns : (⟨2, by decide⟩ : Fin 3) ∉ (rowDims C wf).startIndexMap :=
      show (⟨2, by decide⟩ : Fin 3) ∉ ([0, 1] : List (Fin 3)) from by decide
    unfold GatherDims.start
    rw [dif_neg hns]
    have hk : (⟨2, by decide⟩ : Fin 3) ∈ (rowDims C wf).sKept :=
      (GatherDims.mem_sKept _ _).mpr ⟨show (⟨2, by decide⟩ : Fin 3) ∉ ([0, 1] : List (Fin 3)) from by decide, List.not_mem_nil⟩
    unfold GatherDims.offCoord
    rw [dif_pos hk]
    simp only [Nat.zero_add]
    rfl

end Cert.RefGather

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«123584_g48833778155979_cont_8to1_c_18_28_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.RefRead.lean ====
/-
  The reference's float stage, read at an index.

  With the two coordinate tables known to hold, for station k, the pair (7k mod 64, 13k mod 64), the similarity
  block at (i, j, k) is the sum over the 8 channels c of exp(-|R[station k, c] - R[i, j, c]|): the gathered station
  rows and the grid are broadcast to one 64 x 64 x 32 x 8 block, subtracted, and the channel axis is summed from
  the initial value 0. The result at (i, j, f) is then the sum over stations k of that similarity times
  proj[k, f], where proj is the product of the gathered feature rows with the weights.
-/
import proofs.«123584_g48833778155979_cont_8to1_c_18_28_alg».proof.Proof.Gen.ReferenceIdeal
import proofs.«123584_g48833778155979_cont_8to1_c_18_28_alg».proof.Proof.Spec
import proofs.«123584_g48833778155979_cont_8to1_c_18_28_alg».proof.Proof.RefGather
import proofs.«123584_g48833778155979_cont_8to1_c_18_28_alg».proof.Proof.LibDotRead
import Idealize.ShloMosaic.Lib.Pipeline.Value

noncomputable section

namespace Cert.ReferenceIdeal.RefRead

open Cert.ReferenceIdeal Cert.ReferenceIdeal.Gen Idealize.ShloMosaic Idealize.ShloMosaic.ValueIdx Cert.Station Cert.RefGather
open scoped BigOperators

/-- The table of station coordinates: row k holds (7k mod 64, 13k mod 64) as 32-bit words. -/
def stationTable : IVec S32x2 32 :=
  fun q => BitVec.ofNat 32 (if (q 1).val = 0 then 7 * (q 0).val % 64 else 13 * (q 0).val % 64)

/-- Its first column, as a flat array of 32 words. -/
def stationRows : IVec S32 32 := fun q => BitVec.ofNat 32 (7 * (q 0).val % 64)
/-- Its second column. -/
def stationCols : IVec S32 32 := fun q => BitVec.ofNat 32 (13 * (q 0).val % 64)

section Terms
variable {F : FTy → Type} [FloatOps F]

/-- The stations' context rows, one per station, spread over the whole 64 x 64 x 32 x 8 block. -/
def bcCtx (G : FVec F S32x8 .f32) : FVec F S64x64x32x8 .f32 :=
  broadcastInDim S64x64x32x8 ![0, 1, 2, 3] bcast_S1x1x32x8_S64x64x32x8_0_1_2_3
    (broadcastInDim S1x1x32x8 ![2, 3] bcast_S32x8_S1x1x32x8_2_3 G)

/-- The grid's context rows spread over the station axis. -/
def bcGrid (R : FVec F S64x64x8 .f32) : FVec F S64x64x32x8 .f32 :=
  broadcastInDim S64x64x32x8 ![0, 1, 2, 3] bcast_S64x64x1x8_S64x64x32x8_0_1_2_3
    (broadcastInDim S64x64x1x8 ![0, 1, 3] bcast_S64x64x8_S64x64x1x8_0_1_3 R)

/-- exp(-|A - B|), entry by entry. -/
def expNegAbs (A B : FVec F S64x64x32x8 .f32) : FVec F S64x64x32x8 .f32 :=
  Host.exp (Host.negf (Host.absf (subf A B)))

/-- The similarity block as a term of the context array and the coordinate table. -/
def simT (R : FVec F S64x64x8 .f32) (I : IVec S32x2 32) : FVec F S64x64x32 .f32 :=
  Host.reduceAdd (expNegAbs (bcCtx (Host.gather gather_S64x64x8_S32x2_S32x8_1_01_n_n_01_1_118 R I)) (bcGrid R))
    (constant S_ .f32 0x00000000#32) reducesTo_S64x64x32x8_S64x64x32_d3 h_S_

/-- The result as a term of the similarity block, the features, the weights and the coordinate table. -/
def outT (S : FVec F S64x64x32 .f32) (x : FVec F S64x64x32 .f32) (W : FVec F S32x32 .f32) (I : IVec S32x2 32) :
    FVec F S64x64x32 .f32 :=
  Host.dotGeneral dot_S64x64x32_S32x32_S64x64x32_2_0_01_1_n_n none S
    (Host.dotGeneral dot_S32x32_S32x32_S32x32_1_0_0_1_n_n none
      (Host.gather gather_S64x64x32_S32x2_S32x32_1_01_n_n_01_1_1132 x I) W)

end Terms

/-- A word below 64 read as a signed integer and clamped into 0 .. 63 is itself. -/
theorem clampWord : ∀ n : Fin 64, min (BitVec.ofNat 32 n.val).toInt.toNat 63 = n.val := by decide +kernel

theorem stationTable_row (k : Fin 32) (h) :
    (⟨min (stationTable (ix2 k (0 : Fin 2))).toInt.toNat 63, h⟩ : Fin 64) = sx k :=
  Fin.ext (clampWord (sx k))

theorem stationTable_col (k : Fin 32) (h) :
    (⟨min (stationTable (ix2 k (1 : Fin 2))).toInt.toNat 63, h⟩ : Fin 64) = sy k :=
  Fin.ext (clampWord (sy k))

/-- The station's context row: the gather at (k, c) is the context array at station k, channel c. -/
theorem ctx_apply (R : FVec Ideal S64x64x8 .f32) (k : Fin 32) (c : Fin 8) :
    Host.gather gather_S64x64x8_S32x2_S32x8_1_01_n_n_01_1_118 R stationTable (ix2 k c) = R (ix3 (sx k) (sy k) c) := by
  refine (gather_row_apply gather_S64x64x8_S32x2_S32x8_1_01_n_n_01_1_118_wf R stationTable k c).trans ?_
  rw [stationTable_row, stationTable_col]

/-- The station's feature row likewise. -/
theorem feat_apply (x : FVec Ideal S64x64x32 .f32) (k : Fin 32) (c : Fin 32) :
    Host.gather gather_S64x64x32_S32x2_S32x32_1_01_n_n_01_1_1132 x stationTable (ix2 k c) = x (ix3 (sx k) (sy k) c) := by
  refine (gather_row_apply gather_S64x64x32_S32x2_S32x32_1_01_n_n_01_1_1132_wf x stationTable k c).trans ?_
  rw [stationTable_row, stationTable_col]

/-- The station rows spread over the block, read at (i, j, k, c): the row of station k at channel c. -/
theorem bcCtx_apply (G : FVec Ideal S32x8 .f32) (i j : Fin 64) (k : Fin 32) (c : Fin 8) :
    bcCtx G (ix4 i j k c) = G (ix2 k c) :=
  (broadcastInDim_apply _ _ _ (ix4 i j k c) (ix4 (0 : Fin 1) (0 : Fin 1) k c) (by
      intro a
      match a with
      | ⟨0, _⟩ => rfl
      | ⟨1, _⟩ => rfl
      | ⟨2, _⟩ => rfl
      | ⟨3, _⟩ => rfl)).trans
    (broadcastInDim_apply _ _ _ (ix4 (0 : Fin 1) (0 : Fin 1) k c) (ix2 k c) (by
      intro a
      match a with
      | ⟨0, _⟩ => rfl
      | ⟨1, _⟩ => rfl))

/-- The grid rows spread over the station axis, read at (i, j, k, c): the grid at (i, j, c). -/
theorem bcGrid_apply (R : FVec Ideal S64x64x8 .f32) (i j : Fin 64) (k : Fin 32) (c : Fin 8) :
    bcGrid R (ix4 i j k c) = R (ix3 i j c) :=
  (broadcastInDim_apply _ _ _ (ix4 i j k c) (ix4 i j (0 : Fin 1) c) (by
      intro a
      match a with
      | ⟨0, _⟩ => rfl
      | ⟨1, _⟩ => rfl
      | ⟨2, _⟩ => rfl
      | ⟨3, _⟩ => rfl)).trans
    (broadcastInDim_apply _ _ _ (ix4 i j (0 : Fin 1) c) (ix3 i j c) (by
      intro a
      match a with
      | ⟨0, _⟩ => rfl
      | ⟨1, _⟩ => rfl
      | ⟨2, _⟩ => rfl))

theorem expNegAbs_apply (A B : FVec Ideal S64x64x32x8 .f32) (q : S64x64x32x8.Idx) :
    expNegAbs A B q = Ideal.exp (-(max (A q - B q) (-(A q - B q)))) := rfl

/-- Dropping the channel axis of the four-axis block leaves the three-axis one. -/
theorem red : S64x64x32x8.Reduces [3] S64x64x32 := by decide

/-- The index over (i, j, k) with channel c put back on the dropped axis is (i, j, k, c). -/
theorem lift_ix (i j : Fin 64) (k : Fin 32) (c : Fin 8) : red.lift (ix3 i j k) c = ix4 i j k c := by
  funext a
  refine Fin.ext ?_
  match a with
  | ⟨0, _⟩ => rfl
  | ⟨1, _⟩ => rfl
  | ⟨2, _⟩ => rfl
  | ⟨3, _⟩ => rfl

/-- THE SIMILARITY at (i, j, k): the sum over channels of exp(-|R[station k, c] - R[i, j, c]|). -/
theorem simT_apply (R : FVec Ideal S64x64x8 .f32) (i j : Fin 64) (k : Fin 32) :
    simT R stationTable (ix3 i j k) = simAbs R i j k := by
  refine (Ideal.hostReduceAdd_single reducesTo_S64x64x32x8_S64x64x32_d3 red _ _ (ix3 i j k)).trans ?_
  rw [show (constant (F := Ideal) S_ .f32 0x00000000#32) (Shape.Idx.first h_S_) = (0 : EReal) from Ideal.ofBits_zero_f32,
    zero_add]
  unfold simAbs
  refine Finset.sum_congr rfl fun (c : Fin 8) _ => ?_
  refine (congrArg _ (lift_ix i j k c)).trans ?_
  rw [expNegAbs_apply, bcCtx_apply, bcGrid_apply, ctx_apply]

/-- proj at (k, f): station k's feature row times column f of the weights. -/
theorem proj_apply (x : FVec Ideal S64x64x32 .f32) (W : FVec Ideal S32x32 .f32) (k f : Fin 32) :
    Host.dotGeneral dot_S32x32_S32x32_S32x32_1_0_0_1_n_n none
        (Host.gather gather_S64x64x32_S32x2_S32x32_1_01_n_n_01_1_1132 x stationTable) W (ix2 k f) = proj x W k f := by
  refine (MatmulRead.hostDot_ix2 ⟨rfl, rfl, rfl, rfl, rfl, rfl⟩ rfl rfl none _ W k f).trans ?_
  unfold proj
  exact Finset.sum_congr rfl fun j _ => by rw [feat_apply]

/-- The last product at (i, j, f): the sum over stations of the left block at (i, j, k) times the right at (k, f). -/
theorem lastDot_apply (S : FVec Ideal S64x64x32 .f32) (P : FVec Ideal S32x32 .f32) (i j : Fin 64) (f : Fin 32) :
    Host.dotGeneral dot_S64x64x32_S32x32_S64x64x32_2_0_01_1_n_n none S P (ix3 i j f)
      = ∑ k : Fin 32, S (ix3 i j k) * P (ix2 k f) := by
  have hr : dot_S64x64x32_S32x32_S64x64x32_2_0_01_1_n_n.contr.rank = 1 := rfl
  have hs : dot_S64x64x32_S32x32_S64x64x32_2_0_01_1_n_n.contr.size ⟨0, by omega⟩ = 32 := rfl
  refine (Ideal.dotGeneral_apply dot_S64x64x32_S32x32_S64x64x32_2_0_01_1_n_n none .single S P (ix3 i j f)).trans ?_
  rw [← Equiv.sum_comp (contrEquiv1 dot_S64x64x32_S32x32_S64x64x32_2_0_01_1_n_n 32 hr hs).symm]
  refine Finset.sum_congr rfl fun k _ => ?_
  have hk := contrEquiv1_symm_val dot_S64x64x32_S32x32_S64x64x32_2_0_01_1_n_n 32 hr hs k
  have el : dot_S64x64x32_S32x32_S64x64x32_2_0_01_1_n_n.lhsIdx (ix3 i j f)
      ((contrEquiv1 dot_S64x64x32_S32x32_S64x64x32_2_0_01_1_n_n 32 hr hs).symm k) = ix3 i j k :=
    funext fun ax => Fin.ext (by
      match ax with
      | ⟨0, _⟩ => rfl
      | ⟨1, _⟩ => rfl
      | ⟨2, _⟩ => exact (DotDims.lhsIdx_val_of_single _ rfl _ _).trans hk)
  have er : dot_S64x64x32_S32x32_S64x64x32_2_0_01_1_n_n.rhsIdx (ix3 i j f)
      ((contrEquiv1 dot_S64x64x32_S32x32_S64x64x32_2_0_01_1_n_n 32 hr hs).symm k) = ix2 k f :=
    funext fun ax => Fin.ext (by
      match ax with
      | ⟨0, _⟩ => exact (DotDims.rhsIdx_val_of_single _ rfl _ _).trans hk
      | ⟨1, _⟩ => rfl)
  rw [el, er]

/-- THE RESULT at (i, j, f): the sum over stations of similarity times projection. -/
theorem outT_apply (x : FVec Ideal S64x64x32 .f32) (W : FVec Ideal S32x32 .f32) (R : FVec Ideal S64x64x8 .f32)
    (i j : Fin 64) (f : Fin 32) :
    outT (simT R stationTable) x W stationTable (ix3 i j f) = refAt x W R i j f := by
  unfold outT refAt
  rw [lastDot_apply]
  exact Finset.sum_congr rfl fun k _ => by rw [simT_apply, proj_apply]

end Cert.ReferenceIdeal.RefRead

end
-- ==== Proof.RefStages.lean ====
/-
  The float pieces of the reference's operation list as terms of the buffers they read, and the buffers each piece
  leaves alone.

  The similarity piece writes, at its last buffer, the similarity block of the context array and the first
  coordinate table; the last piece writes, at the result, the product of the similarity block with the product of
  the gathered feature rows and the weights. Every piece leaves the three arguments as they were, and the pieces
  between a value's definition and its use leave that value as it was.
-/
import proofs.«123584_g48833778155979_cont_8to1_c_18_28_alg».proof.Proof.RefRun
import proofs.«123584_g48833778155979_cont_8to1_c_18_28_alg».proof.Proof.RefRead

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefRead

/-- The similarity piece ends with its last buffer at the similarity block of the context array and the table
    the piece before it left. -/
theorem afterB_v26 (V : Valuation τ sig (Elt Ideal)) :
    after (opsB (F := Ideal)) V (main_v26 : DevRef τ sig)
      = simT (F := Ideal) (V (main_arg2 : DevRef τ sig)) (V (main_v16 : DevRef τ sig)) := by
  after_results_simp
  rfl

/-- The last piece ends with the result at the product of the similarity block with the projected station rows. -/
theorem afterD_v47 (V : Valuation τ sig (Elt Ideal)) :
    after (opsD (F := Ideal)) V (main_v47 : DevRef τ sig)
      = outT (F := Ideal) (V (main_v26 : DevRef τ sig)) (V (main_arg0 : DevRef τ sig)) (V (main_arg1 : DevRef τ sig))
          (V (main_v44 : DevRef τ sig)) := by
  after_results_simp
  rfl

/-! The buffers each piece leaves alone. -/

theorem frameA1_arg0 (V : Valuation τ sig (Elt Ideal)) :
    after (opsA1 (F := Ideal)) V (main_arg0 : DevRef τ sig) = V (main_arg0 : DevRef τ sig) := by after_results_simp
theorem frameA1_arg1 (V : Valuation τ sig (Elt Ideal)) :
    after (opsA1 (F := Ideal)) V (main_arg1 : DevRef τ sig) = V (main_arg1 : DevRef τ sig) := by after_results_simp
theorem frameA1_arg2 (V : Valuation τ sig (Elt Ideal)) :
    after (opsA1 (F := Ideal)) V (main_arg2 : DevRef τ sig) = V (main_arg2 : DevRef τ sig) := by after_results_simp
theorem frameA2_arg0 (V : Valuation τ sig (Elt Ideal)) :
    after (opsA2 (F := Ideal)) V (main_arg0 : DevRef τ sig) = V (main_arg0 : DevRef τ sig) := by after_results_simp
theorem frameA2_arg1 (V : Valuation τ sig (Elt Ideal)) :
    after (opsA2 (F := Ideal)) V (main_arg1 : DevRef τ sig) = V (main_arg1 : DevRef τ sig) := by after_results_simp
theorem frameA2_arg2 (V : Valuation τ sig (Elt Ideal)) :
    after (opsA2 (F := Ideal)) V (main_arg2 : DevRef τ sig) = V (main_arg2 : DevRef τ sig) := by after_results_simp
theorem frameA2_v1 (V : Valuation τ sig (Elt Ideal)) :
    after (opsA2 (F := Ideal)) V (main_v1 : DevRef τ sig) = V (main_v1 : DevRef τ sig) := by after_results_simp
theorem frameA2_v3 (V : Valuation τ sig (Elt Ideal)) :
    after (opsA2 (F := Ideal)) V (main_v3 : DevRef τ sig) = V (main_v3 : DevRef τ sig) := by after_results_simp
theorem frameB_arg0 (V : Valuation τ sig (Elt Ideal)) :
    after (opsB (F := Ideal)) V (main_arg0 : DevRef τ sig) = V (main_arg0 : DevRef τ sig) := by after_results_simp
theorem frameB_arg1 (V : Valuation τ sig (Elt Ideal)) :
    after (opsB (F := Ideal)) V (main_arg1 : DevRef τ sig) = V (main_arg1 : DevRef τ sig) := by after_results_simp
theorem frameB_arg2 (V : Valuation τ sig (Elt Ideal)) :
    after (opsB (F := Ideal)) V (main_arg2 : DevRef τ sig) = V (main_arg2 : DevRef τ sig) := by after_results_simp
theorem frameB_v1 (V : Valuation τ sig (Elt Ideal)) :
    after (opsB (F := Ideal)) V (main_v1 : DevRef τ sig) = V (main_v1 : DevRef τ sig) := by after_results_simp
theorem frameB_v3 (V : Valuation τ sig (Elt Ideal)) :
    after (opsB (F := Ideal)) V (main_v3 : DevRef τ sig) = V (main_v3 : DevRef τ sig) := by after_results_simp
theorem frameC1_arg0 (V : Valuation τ sig (Elt Ideal)) :
    after (opsC1 (F := Ideal)) V (main_arg0 : DevRef τ sig) = V (main_arg0 : DevRef τ sig) := by after_results_simp
theorem frameC1_arg1 (V : Valuation τ sig (Elt Ideal)) :
    after (opsC1 (F := Ideal)) V (main_arg1 : DevRef τ sig) = V (main_arg1 : DevRef τ sig) := by after_results_simp
theorem frameC1_arg2 (V : Valuation τ sig (Elt Ideal)) :
    after (opsC1 (F := Ideal)) V (main_arg2 : DevRef τ sig) = V (main_arg2 : DevRef τ sig) := by after_results_simp
theorem frameC1_v26 (V : Valuation τ sig (Elt Ideal)) :
    after (opsC1 (F := Ideal)) V (main_v26 : DevRef τ sig) = V (main_v26 : DevRef τ sig) := by after_results_simp
theorem frameC2_arg0 (V : Valuation τ sig (Elt Ideal)) :
    after (opsC2 (F := Ideal)) V (main_arg0 : DevRef τ sig) = V (main_arg0 : DevRef τ sig) := by after_results_simp
theorem frameC2_arg1 (V : Valuation τ sig (Elt Ideal)) :
    after (opsC2 (F := Ideal)) V (main_arg1 : DevRef τ sig) = V (main_arg1 : DevRef τ sig) := by after_results_simp
theorem frameC2_arg2 (V : Valuation τ sig (Elt Ideal)) :
    after (opsC2 (F := Ideal)) V (main_arg2 : DevRef τ sig) = V (main_arg2 : DevRef τ sig) := by after_results_simp
theorem frameC2_v26 (V : Valuation τ sig (Elt Ideal)) :
    after (opsC2 (F := Ideal)) V (main_v26 : DevRef τ sig) = V (main_v26 : DevRef τ sig) := by after_results_simp
theorem frameD_arg0 (V : Valuation τ sig (Elt Ideal)) :
    after (opsD (F := Ideal)) V (main_arg0 : DevRef τ sig) = V (main_arg0 : DevRef τ sig) := by after_results_simp
theorem frameD_arg1 (V : Valuation τ sig (Elt Ideal)) :
    after (opsD (F := Ideal)) V (main_arg1 : DevRef τ sig) = V (main_arg1 : DevRef τ sig) := by after_results_simp
theorem frameD_arg2 (V : Valuation τ sig (Elt Ideal)) :
    after (opsD (F := Ideal)) V (main_arg2 : DevRef τ sig) = V (main_arg2 : DevRef τ sig) := by after_results_simp

end Cert.ReferenceIdeal.RefStages

end
-- ==== Proof.RefIndex.lean ====
/-
  The reference's two chains of integer arithmetic on the station coordinates.

  The table of station coordinates is a literal: row k holds (7k mod 64, 13k mod 64). The first chain takes its two
  columns and wraps a negative coordinate by adding 64; every coordinate lies in 0 .. 63, so nothing is wrapped and
  the columns come back unchanged, and side by side they are the table again. The second chain forms the flat cell
  number 64 * row + column (below 4096), and splits it again by floor division and remainder by 64. For a
  non-negative dividend and the divisor 64 the truncated quotient is already the floor (the correcting "subtract 1"
  needs operands of different signs and a non-zero remainder) and the truncated remainder is already non-negative
  (the correcting "add the divisor" needs a remainder of the other sign), so the quotient is the row and the
  remainder the column; the wrap by 64 again changes nothing. All of it is arithmetic on 32 words of 32 bits, one
  per station, and is checked by evaluating both sides at each of the 32 stations.
-/
import proofs.«123584_g48833778155979_cont_8to1_c_18_28_alg».proof.Proof.RefRun
import proofs.«123584_g48833778155979_cont_8to1_c_18_28_alg».proof.Proof.RefRead
import Idealize.ShloMosaic.Lib.ValueIdx
import Idealize.ShloMosaic.Lib.Pipeline.Value

noncomputable section

namespace Cert.ReferenceIdeal.RefIndex

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun Cert.ReferenceIdeal.RefRead

/-- The first column of the literal table, reshaped to a flat array, is the rows 7k mod 64. -/
theorem afterA1_v1 (V : Valuation τ sig (Elt Ideal)) :
    after (opsA1 (F := Ideal)) V (main_v1 : DevRef τ sig) = stationRows := by
  after_results_simp
  funext q
  obtain ⟨k, rfl⟩ : ∃ k : Fin 32, q = ix1 k := ⟨q 0, eq_ix1 q⟩
  revert k
  unfold stationRows
  decide +kernel

/-- The second column likewise is the columns 13k mod 64. -/
theorem afterA1_v3 (V : Valuation τ sig (Elt Ideal)) :
    after (opsA1 (F := Ideal)) V (main_v3 : DevRef τ sig) = stationCols := by
  after_results_simp
  funext q
  obtain ⟨k, rfl⟩ : ∃ k : Fin 32, q = ix1 k := ⟨q 0, eq_ix1 q⟩
  revert k
  unfold stationCols
  decide +kernel

/-- The rows after the wrap of negative coordinates: unchanged, every row being in 0 .. 63. -/
theorem afterA1_v8 (V : Valuation τ sig (Elt Ideal)) :
    after (opsA1 (F := Ideal)) V (main_v8 : DevRef τ sig) = stationRows := by
  after_results_simp
  funext q
  obtain ⟨k, rfl⟩ : ∃ k : Fin 32, q = ix1 k := ⟨q 0, eq_ix1 q⟩
  revert k
  unfold stationRows
  decide +kernel

/-- The columns after the wrap: unchanged. -/
theorem afterA1_v13 (V : Valuation τ sig (Elt Ideal)) :
    after (opsA1 (F := Ideal)) V (main_v13 : DevRef τ sig) = stationCols := by
  after_results_simp
  funext q
  obtain ⟨k, rfl⟩ : ∃ k : Fin 32, q = ix1 k := ⟨q 0, eq_ix1 q⟩
  revert k
  unfold stationCols
  decide +kernel

/-- The two unchanged columns, each as a 32 x 1 block, put side by side: the table of station coordinates. -/
theorem afterA2_v16 (V : Valuation τ sig (Elt Ideal)) (h8 : V (main_v8 : DevRef τ sig) = stationRows)
    (h13 : V (main_v13 : DevRef τ sig) = stationCols) :
    after (opsA2 (F := Ideal)) V (main_v16 : DevRef τ sig) = stationTable := by
  after_results
  rw [h8, h13]
  funext q
  obtain ⟨k, a, rfl⟩ : ∃ (k : Fin 32) (a : Fin 2), q = ix2 k a := ⟨q 0, q 1, eq_ix2 q⟩
  revert k a
  unfold stationTable stationRows stationCols
  decide +kernel

/-- The floor quotient of 64 * row + column by 64, wrapped: the row again. -/
theorem afterC1_v36 (V : Valuation τ sig (Elt Ideal)) (h1 : V (main_v1 : DevRef τ sig) = stationRows)
    (h3 : V (main_v3 : DevRef τ sig) = stationCols) :
    after (opsC1 (F := Ideal)) V (main_v36 : DevRef τ sig) = stationRows := by
  after_results_simp
  rw [h1, h3]
  funext q
  obtain ⟨k, rfl⟩ : ∃ k : Fin 32, q = ix1 k := ⟨q 0, eq_ix1 q⟩
  revert k
  unfold stationRows stationCols
  decide +kernel

/-- The remainder of 64 * row + column by 64, wrapped: the column again. -/
theorem afterC1_v41 (V : Valuation τ sig (Elt Ideal)) (h1 : V (main_v1 : DevRef τ sig) = stationRows)
    (h3 : V (main_v3 : DevRef τ sig) = stationCols) :
    after (opsC1 (F := Ideal)) V (main_v41 : DevRef τ sig) = stationCols := by
  after_results_simp
  rw [h1, h3]
  funext q
  obtain ⟨k, rfl⟩ : ∃ k : Fin 32, q = ix1 k := ⟨q 0, eq_ix1 q⟩
  revert k
  unfold stationRows stationCols
  decide +kernel

/-- The same for the second chain's two columns. -/
theorem afterC2_v44 (V : Valuation τ sig (Elt Ideal)) (h36 : V (main_v36 : DevRef τ sig) = stationRows)
    (h41 : V (main_v41 : DevRef τ sig) = stationCols) :
    after (opsC2 (F := Ideal)) V (main_v44 : DevRef τ sig) = stationTable := by
  after_results
  rw [h36, h41]
  funext q
  obtain ⟨k, a, rfl⟩ : ∃ (k : Fin 32) (a : Fin 2), q = ix2 k a := ⟨q 0, q 1, eq_ix2 q⟩
  revert k a
  unfold stationTable stationRows stationCols
  decide +kernel

end Cert.ReferenceIdeal.RefIndex

end
-- ==== Proof.RefValue.lean ====
/-
  The reference's run and its value.

  The reference is a straight line of host operations. Its two coordinate chains — one through a wrap of
  negative coordinates, the other through a flat cell number split again by floor division and remainder — both
  end at the same table: station k at (7k mod 64, 13k mod 64). With that table, the similarity block at (i, j, k) is
  the sum over channels of exp(-|R[station k, c] - R[i, j, c]|), the projected station rows are the gathered feature
  rows times the weights, and the result at (i, j, f) is the sum over stations of the one times the other. Every
  weakly fair execution ends with the result buffer at that array of the three arguments' launch contents, and the
  arguments unchanged.
-/
import proofs.«123584_g48833778155979_cont_8to1_c_18_28_alg».proof.Proof.RefStages
import proofs.«123584_g48833778155979_cont_8to1_c_18_28_alg».proof.Proof.RefIndex
import proofs.«123584_g48833778155979_cont_8to1_c_18_28_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Station
open Cert.ReferenceIdeal.RefRun Cert.ReferenceIdeal.RefRead Cert.ReferenceIdeal.RefStages Cert.ReferenceIdeal.RefIndex

/-- Each argument is as it was after all the operations. -/
theorem arg0_eq (V : Valuation τ sig (Elt Ideal)) :
    after (ops (F := Ideal)) V (main_arg0 : DevRef τ sig) = V (main_arg0 : DevRef τ sig) := by
  rw [after_ops, frameD_arg0, frameC2_arg0, frameC1_arg0, frameB_arg0, frameA2_arg0, frameA1_arg0]
theorem arg1_eq (V : Valuation τ sig (Elt Ideal)) :
    after (ops (F := Ideal)) V (main_arg1 : DevRef τ sig) = V (main_arg1 : DevRef τ sig) := by
  rw [after_ops, frameD_arg1, frameC2_arg1, frameC1_arg1, frameB_arg1, frameA2_arg1, frameA1_arg1]
theorem arg2_eq (V : Valuation τ sig (Elt Ideal)) :
    after (ops (F := Ideal)) V (main_arg2 : DevRef τ sig) = V (main_arg2 : DevRef τ sig) := by
  rw [after_ops, frameD_arg2, frameC2_arg2, frameC1_arg2, frameB_arg2, frameA2_arg2, frameA1_arg2]

/-- After all the operations the result buffer holds, at every index, the sum over stations of similarity times
    projection of the three arguments' launch contents. The pieces are threaded in order: both coordinate tables
    are the station table, so the similarity piece and the last piece are read with that table. -/
theorem value (V : Valuation τ sig (Elt Ideal)) :
    after (ops (F := Ideal)) V (main_v47 : DevRef τ sig)
      = refG (V (main_arg0 : DevRef τ sig)) (V (main_arg1 : DevRef τ sig)) (V (main_arg2 : DevRef τ sig)) := by
  rw [after_ops, afterD_v47]
  generalize hV1 : after (opsA1 (F := Ideal)) V = V1
  generalize hV2 : after (opsA2 (F := Ideal)) V1 = V2
  generalize hV3 : after (opsB (F := Ideal)) V2 = V3
  generalize hV4 : after (opsC1 (F := Ideal)) V3 = V4
  generalize hV5 : after (opsC2 (F := Ideal)) V4 = V5
  -- the first chain's columns, still in place when the second chain reads them
  have e1 : V3 (main_v1 : DevRef τ sig) = stationRows := by
    rw [← hV3, frameB_v1, ← hV2, frameA2_v1, ← hV1]; exact afterA1_v1 V
  have e3 : V3 (main_v3 : DevRef τ sig) = stationCols := by
    rw [← hV3, frameB_v3, ← hV2, frameA2_v3, ← hV1]; exact afterA1_v3 V
  -- the second table
  have e44 : V5 (main_v44 : DevRef τ sig) = stationTable := by
    rw [← hV5]
    refine afterC2_v44 V4 ?_ ?_
    · rw [← hV4]; exact afterC1_v36 V3 e1 e3
    · rw [← hV4]; exact afterC1_v41 V3 e1 e3
  -- the first table and the context array, as the similarity piece reads them
  have e16 : V2 (main_v16 : DevRef τ sig) = stationTable := by
    rw [← hV2]
    refine afterA2_v16 V1 ?_ ?_
    · rw [← hV1]; exact afterA1_v8 V
    · rw [← hV1]; exact afterA1_v13 V
  have e2 : V2 (main_arg2 : DevRef τ sig) = V (main_arg2 : DevRef τ sig) := by
    rw [← hV2, frameA2_arg2, ← hV1, frameA1_arg2]
  have e26 : V5 (main_v26 : DevRef τ sig) = simT (F := Ideal) (V (main_arg2 : DevRef τ sig)) stationTable := by
    rw [← hV5, frameC2_v26, ← hV4, frameC1_v26, ← hV3, afterB_v26, e2, e16]
  have e0 : V5 (main_arg0 : DevRef τ sig) = V (main_arg0 : DevRef τ sig) := by
    rw [← hV5, frameC2_arg0, ← hV4, frameC1_arg0, ← hV3, frameB_arg0, ← hV2, frameA2_arg0, ← hV1, frameA1_arg0]
  have ew : V5 (main_arg1 : DevRef τ sig) = V (main_arg1 : DevRef τ sig) := by
    rw [← hV5, frameC2_arg1, ← hV4, frameC1_arg1, ← hV3, frameB_arg1, ← hV2, frameA2_arg1, ← hV1, frameA1_arg1]
  rw [e26, e0, ew, e44]
  funext q
  exact (congrArg (outT _ _ _ _) (eq_ix3 q)).trans (outT_apply _ _ _ (q 0) (q 1) (q 2))

/-- From any memory with zero counters every weakly fair execution of the reference terminates with the result
    buffer at the station sum of the three arguments' launch contents, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v47)
            = Cert.Station.refG (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c main_v47).trans (value _), (h c main_arg0).trans (arg0_eq _),
      (h c main_arg1).trans (arg1_eq _), (h c main_arg2).trans (arg2_eq _)⟩)
    (run_after m ρ)

end Cert.ReferenceIdeal.RefValue

end
-- ==== Proof.lean ====
/-
  The kernel and its reference compute the same array on the extended reals.

  Thirty-two stations sit on a 64 x 64 grid (station k at row 7k mod 64, column 13k mod 64). From the features
  x [64, 64, 32], the weights W [32, 32] and the context R [64, 64, 8] both programs form
      proj[k, f] = sum_j x[station k, j] * W[j, f]
  and, for every cell (i, j) and station k, a similarity summed over the 8 context channels c; the result is
      res[i, j, f] = sum_k sim(i, j, k) * proj[k, f].
  The reference takes sim = sum_c exp(-|R[station k, c] - R[i, j, c]|). The kernel never forms the difference: it
  exponentiates R and -R once and takes min(exp(-r) * exp(s), exp(r) * exp(-s)), which for real r and s is
  exp(min(s - r, r - s)) = exp(-|r - s|). At an infinity the two need not agree, and that is the one place where the
  precondition (every input finite) is used: it makes every entry of R a real number.

  The rest is bookkeeping. The kernel reads its station rows and columns out of re-laid-out copies of x and R at fixed
  offsets and writes its result transposed, and the lines around it undo that (Proof/KerGather, KerPay, KerHost,
  KerValue: the kernel program ends at sum_k proj * sim with the min form). The reference finds the stations through an
  integer table and two gathers (Proof/RefRun … RefValue: it ends at sum_k sim * proj with the absolute-value form).
  Proof/Bridge joins the two forms where R is finite, Proof/Finite gets that from the precondition. The three frames are
  the generated ones (for the reference, its run with the result dropped); the idealization rewrote nothing.
-/
import proofs.«123584_g48833778155979_cont_8to1_c_18_28_alg».proof.Defs
import proofs.«123584_g48833778155979_cont_8to1_c_18_28_alg».proof.Proof.Gen.Kernel
import proofs.«123584_g48833778155979_cont_8to1_c_18_28_alg».proof.Proof.Gen.Kernel.Frame
import proofs.«123584_g48833778155979_cont_8to1_c_18_28_alg».proof.Proof.Gen.KernelIdeal
import proofs.«123584_g48833778155979_cont_8to1_c_18_28_alg».proof.Proof.Gen.KernelIdeal.Frame
import proofs.«123584_g48833778155979_cont_8to1_c_18_28_alg».proof.Proof.Gen.ReferenceIdeal
import proofs.«123584_g48833778155979_cont_8to1_c_18_28_alg».proof.Proof.Gen.Pre_finite_inputs
import proofs.«123584_g48833778155979_cont_8to1_c_18_28_alg».proof.Proof.KerValue
import proofs.«123584_g48833778155979_cont_8to1_c_18_28_alg».proof.Proof.Bridge
import proofs.«123584_g48833778155979_cont_8to1_c_18_28_alg».proof.Proof.Finite
import proofs.«123584_g48833778155979_cont_8to1_c_18_28_alg».proof.Proof.RefValue
import Idealize.ShloMosaic.Adequacy
import Idealize.ShloMosaic.Init

noncomputable section

namespace Cert.Proof

open Idealize.ShloMosaic Idealize.SL.Sem

/-- The word-level kernel program runs and keeps its arguments (the generated frame). -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing, so there is nothing to restate. -/
theorem preserves : Cert.preserves_Kernel_KernelIdeal := trivial

/-- Both idealized programs end at the specification's first spelling of the arguments: the reference directly, the
    kernel through its second spelling, which agrees with the first because the precondition makes the context array
    finite. -/
theorem algebraic : Cert.algebraic_KernelIdeal_ReferenceIdeal := by
  intro m ρ m' ρ' hpre hagree
  refine ⟨fun c => Cert.Station.refG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KerValue.run m ρ)
    exact Cert.Station.kerG_eq_refG _ _ _ (Cert.Station.finite_of_pre _ _ _ (hpre c))
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
